-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S_ : Shape := ⟨0, ![]⟩

class Facts : Prop where
  bcast_S_S256x2048x39 : S_.BroadcastsInDim S256x2048x39 (![] : Fin 0 → Fin S256x2048x39.rank)
  reducesTo_S256x2048x39_S_d0_1_2 : S256x2048x39.ReducesTo [0, 1, 2] S_
  h_S_ : 0 < S_.numel
  bcast_S_S195x78 : S_.BroadcastsInDim S195x78 (![] : Fin 0 → Fin S195x78.rank)
  reducesTo_S195x78_S_d0_1 : S195x78.ReducesTo [0, 1] S_
  bcast_S_S195 : S_.BroadcastsInDim S195 (![] : Fin 0 → Fin S195.rank)
  reducesTo_S195_S_d0 : S195.ReducesTo [0] S_
  bcast_S_S78x195 : S_.BroadcastsInDim S78x195 (![] : Fin 0 → Fin S78x195.rank)
  reducesTo_S78x195_S_d0_1 : S78x195.ReducesTo [0, 1] S_
  bcast_S_S78 : S_.BroadcastsInDim S78 (![] : Fin 0 → Fin S78.rank)
  reducesTo_S78_S_d0 : S78.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S78 .f32) (main_v48 : IVec S_ 1) (main_v49 : FVec F S78 .f32) (main_v50 : FVec F S78 .f32) : IVec S_ 1 :=
  let main_v51 : IVec S78 1 := cmpf .olt main_v49 main_v50
  let main_c_19 : IVec S_ 1 := constantI S_ 1 1#1
  let main_v52 : IVec S_ 1 := (fun x v => Host.reduce IntOp.andi x v reducesTo_S78_S_d0 h_S_) main_v51 main_c_19
  let main_v53 : IVec S_ 1 := andi main_v48 main_v52
  let main_v54 : FVec F S78 .f32 := Host.absf main_arg11
  let main_cst_20 : FVec F S_ .f32 := constant S_ .f32 0x7F800000#32
  let main_v55 : FVec F S78 .f32 := broadcastInDim S78 ![] bcast_S_S78 main_cst_20
  let main_v56 : IVec S78 1 := cmpf .olt main_v54 main_v55
  let main_c_21 : IVec S_ 1 := constantI S_ 1 1#1
  let main_v57 : IVec S_ 1 := (fun x v => Host.reduce IntOp.andi x v reducesTo_S78_S_d0 h_S_) main_v56 main_c_21
  let main_v58 : IVec S_ 1 := andi main_v53 main_v57
  main_v58

def fn_part2 {F : FTy → Type} [FloatOps F] (main_arg7 : FVec F S1 .f32) (main_arg8 : FVec F S195 .f32) (main_arg9 : FVec F S195 .f32) (main_arg10 : FVec F S78 .f32) (main_arg11 : FVec F S78 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S195 .f32 := Host.absf main_arg8
  let main_cst_14 : FVec F S_ .f32 := constant S_ .f32 0x7F800000#32
  let main_v40 : FVec F S195 .f32 := broadcastInDim S195 ![] bcast_S_S195 main_cst_14
  let main_v41 : IVec S195 1 := cmpf .olt main_v39 main_v40
  let main_c_15 : IVec S_ 1 := constantI S_ 1 1#1
  let main_v42 : IVec S_ 1 := (fun x v => Host.reduce IntOp.andi x v reducesTo_S195_S_d0 h_S_) main_v41 main_c_15
  let main_v43 : IVec S_ 1 := andi main_v38 main_v42
  let main_v44 : FVec F S195 .f32 := Host.absf main_arg9
  let main_cst_16 : FVec F S_ .f32 := constant S_ .f32 0x7F800000#32
  let main_v45 : FVec F S195 .f32 := broadcastInDim S195 ![] bcast_S_S195 main_cst_16
  let main_v46 : IVec S195 1 := cmpf .olt main_v44 main_v45
  let main_c_17 : IVec S_ 1 := constantI S_ 1 1#1
  let main_v47 : IVec S_ 1 := (fun x v => Host.reduce IntOp.andi x v reducesTo_S195_S_d0 h_S_) main_v46 main_c_17
  let main_v48 : IVec S_ 1 := andi main_v43 main_v47
  let main_v49 : FVec F S78 .f32 := Host.absf main_arg10
  let main_cst_18 : FVec F S_ .f32 := constant S_ .f32 0x7F800000#32
  let main_v50 : FVec F S78 .f32 := broadcastInDim S78 ![] bcast_S_S78 main_cst_18
  fn_part3 (F := F) main_arg11 main_v48 main_v49 main_v50

def fn_part1 {F : FTy → Type} [FloatOps F] (main_arg4 : FVec F S78x195 .f32) (main_arg5 : FVec F S78 .f32) (main_arg6 : FVec F S1 .f32) (main_arg7 : FVec F S1 .f32) (main_arg8 : FVec F S195 .f32) (main_arg9 : FVec F S195 .f32) (main_arg10 : FVec F S78 .f32) (main_arg11 : FVec F S78 .f32) (main_v13 : IVec S_ 1) (main_v16 : IVec S195 1) : IVec S_ 1 :=
  let main_c_5 : IVec S_ 1 := constantI S_ 1 1#1
  let main_v17 : IVec S_ 1 := (fun x v => Host.reduce IntOp.andi x v reducesTo_S195_S_d0 h_S_) main_v16 main_c_5
  let main_v18 : IVec S_ 1 := andi main_v13 main_v17
  let main_v19 : FVec F S78x195 .f32 := Host.absf main_arg4
  let main_cst_6 : FVec F S_ .f32 := constant S_ .f32 0x7F800000#32
  let main_v20 : FVec F S78x195 .f32 := broadcastInDim S78x195 ![] bcast_S_S78x195 main_cst_6
  let main_v21 : IVec S78x195 1 := cmpf .olt main_v19 main_v20
  let main_c_7 : IVec S_ 1 := constantI S_ 1 1#1
  let main_v22 : IVec S_ 1 := (fun x v => Host.reduce IntOp.andi x v reducesTo_S78x195_S_d0_1 h_S_) main_v21 main_c_7
  let main_v23 : IVec S_ 1 := andi main_v18 main_v22
  let main_v24 : FVec F S78 .f32 := Host.absf main_arg5
  let main_cst_8 : FVec F S_ .f32 := constant S_ .f32 0x7F800000#32
  let main_v25 : FVec F S78 .f32 := broadcastInDim S78 ![] bcast_S_S78 main_cst_8
  let main_v26 : IVec S78 1 := cmpf .olt main_v24 main_v25
  let main_c_9 : IVec S_ 1 := constantI S_ 1 1#1
  let main_v27 : IVec S_ 1 := (fun x v => Host.reduce IntOp.andi x v reducesTo_S78_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x2048x39 .f32) (main_arg1 : FVec F S256x2048x39 .f32) (main_arg2 : FVec F S195x78 .f32) (main_arg3 : FVec F S195 .f32) (main_arg4 : FVec F S78x195 .f32) (main_arg5 : FVec F S78 .f32) (main_arg6 : FVec F S1 .f32) (main_arg7 : FVec F S1 .f32) (main_arg8 : FVec F S195 .f32) (main_arg9 : FVec F S195 .f32) (main_arg10 : FVec F S78 .f32) (main_arg11 : FVec F S78 .f32) : IVec S_ 1 :=
  let main_v0 : FVec F S256x2048x39 .f32 := Host.absf main_arg0
  let main_cst : FVec F S_ .f32 := constant S_ .f32 0x7F800000#32
  let main_v1 : FVec F S256x2048x39 .f32 := broadcastInDim S256x2048x39 ![] bcast_S_S256x2048x39 main_cst
  let main_v2 : IVec S256x2048x39 1 := cmpf .olt main_v0 main_v1
  let main_c : IVec S_ 1 := constantI S_ 1 1#1
  let main_v3 : IVec S_ 1 := (fun x v => Host.reduce IntOp.andi x v reducesTo_S256x2048x39_S_d0_1_2 h_S_) main_v2 main_c
  let main_v4 : FVec F S256x2048x39 .f32 := Host.absf main_arg1
  let main_cst_0 : FVec F S_ .f32 := constant S_ .f32 0x7F800000#32
  let main_v5 : FVec F S256x2048x39 .f32 := broadcastInDim S256x2048x39 ![] bcast_S_S256x2048x39 main_cst_0
  let main_v6 : IVec S256x2048x39 1 := cmpf .olt main_v4 main_v5
  let main_c_1 : IVec S_ 1 := constantI S_ 1 1#1
  let main_v7 : IVec S_ 1 := (fun x v => Host.reduce IntOp.andi x v reducesTo_S256x2048x39_S_d0_1_2 h_S_) main_v6 main_c_1
  let main_v8 : IVec S_ 1 := andi main_v3 main_v7
  let main_v9 : FVec F S195x78 .f32 := Host.absf main_arg2
  let main_cst_2 : FVec F S_ .f32 := constant S_ .f32 0x7F800000#32
  let main_v10 : FVec F S195x78 .f32 := broadcastInDim S195x78 ![] bcast_S_S195x78 main_cst_2
  let main_v11 : IVec S195x78 1 := cmpf .olt main_v9 main_v10
  let main_c_3 : IVec S_ 1 := constantI S_ 1 1#1
  let main_v12 : IVec S_ 1 := (fun x v => Host.reduce IntOp.andi x v reducesTo_S195x78_S_d0_1 h_S_) main_v11 main_c_3
  let main_v13 : IVec S_ 1 := andi main_v8 main_v12
  let main_v14 : FVec F S195 .f32 := Host.absf main_arg3
  let main_cst_4 : FVec F S_ .f32 := constant S_ .f32 0x7F800000#32
  let main_v15 : FVec F S195 .f32 := broadcastInDim S195 ![] bcast_S_S195 main_cst_4
  let main_v16 : IVec S195 1 := cmpf .olt main_v14 main_v15
  fn_part1 (F := F) main_arg4 main_arg5 main_arg6 main_arg7 main_arg8 main_arg9 main_arg10 main_arg11 main_v13 main_v16
-- ==== Kernel.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S524288x39 : Shape := ⟨2, ![524288, 39]⟩
abbrev S1x195 : Shape := ⟨2, ![1, 195]⟩
abbrev S1x78 : Shape := ⟨2, ![1, 78]⟩
abbrev S1x1 : Shape := ⟨2, ![1, 1]⟩
abbrev S4096x39 : Shape := ⟨2, ![4096, 39]⟩
abbrev S4096x78 : Shape := ⟨2, ![4096, 78]⟩
abbrev S4096x195 : Shape := ⟨2, ![4096, 195]⟩
abbrev S4096 : Shape := ⟨1, ![4096]⟩
abbrev S4096x1 : Shape := ⟨2, ![4096, 1]⟩

abbrev nBuf : Space → Nat
  | .hbm => 30
  | .vmem => 18
  | .smem => 0
  | _ => 0

abbrev bufTy : (tb : Table) → Fin (tcTables nBuf tb) → BufTy
  | .hbm, ⟨0, _⟩ => ⟨S256x2048x39, .f32⟩
  | .hbm, ⟨1, _⟩ => ⟨S256x2048x39, .f32⟩
  | .hbm, ⟨2, _⟩ => ⟨S195x78, .f32⟩
  | .hbm, ⟨3, _⟩ => ⟨S195, .f32⟩
  | .hbm, ⟨4, _⟩ => ⟨S78x195, .f32⟩
  | .hbm, ⟨5, _⟩ => ⟨S78, .f32⟩
  | .hbm, ⟨6, _⟩ => ⟨S1, .f32⟩
  | .hbm, ⟨7, _⟩ => ⟨S1, .f32⟩
  | .hbm, ⟨8, _⟩ => ⟨S195, .f32⟩
  | .hbm, ⟨9, _⟩ => ⟨S195, .f32⟩
  | .hbm, ⟨10, _⟩ => ⟨S78, .f32⟩
  | .hbm, ⟨11, _⟩ => ⟨S78, .f32⟩
  | .hbm, ⟨12, _⟩ => ⟨S524288x39, .f32⟩
  | .hbm, ⟨13, _⟩ => ⟨S524288x39, .f32⟩
  | .hbm, ⟨14, _⟩ => ⟨S78x195, .f32⟩
  | .hbm, ⟨15, _⟩ => ⟨S78x195, .bf16⟩
  | .hbm, ⟨16, _⟩ => ⟨S195x78, .f32⟩
  | .hbm, ⟨17, _⟩ => ⟨S195x78, .bf16⟩
  | .hbm, ⟨18, _⟩ => ⟨S1x195, .f32⟩
  | .hbm, ⟨19, _⟩ => ⟨S1x78, .f32⟩
  | .hbm, ⟨20, _⟩ => ⟨S1x1, .f32⟩
  | .hbm, ⟨21, _⟩ => ⟨S1x1, .f32⟩
  | .hbm, ⟨22, _⟩ => ⟨S1x195, .f32⟩
  | .hbm, ⟨23, _⟩ => ⟨S1x195, .f32⟩
  | .hbm, ⟨24, _⟩ => ⟨S1x78, .f32⟩
  | .hbm, ⟨25, _⟩ => ⟨S1x78, .f32⟩
  | .hbm, ⟨26, _⟩ => ⟨S524288x39, .f32⟩
  | .hbm, ⟨27, _⟩ => ⟨S524288x39, .f32⟩
  | .hbm, ⟨28, _⟩ => ⟨S256x2048x39, .f32⟩
  | .hbm, ⟨29, _⟩ => ⟨S256x2048x39, .f32⟩
  | .local _ .vmem, ⟨0, _⟩ => ⟨S4096x39, .f32⟩
  | .local _ .vmem, ⟨1, _⟩ => ⟨S4096x39, .f32⟩
  | .local _ .vmem, ⟨2, _⟩ => ⟨S4096x39, .f32⟩
  | .local _ .vmem, ⟨3, _⟩ => ⟨S4096x39, .f32⟩
  | .local _ .vmem, ⟨4, _⟩ => ⟨S78x195, .bf16⟩
  | .local _ .vmem, ⟨5, _⟩ => ⟨S1x195, .f32⟩
  | .local _ .vmem, ⟨6, _⟩ => ⟨S195x78, .bf16⟩
  | .local _ .vmem, ⟨7, _⟩ => ⟨S1x78, .f32⟩
  | .local _ .vmem, ⟨8, _⟩ => ⟨S1x1, .f32⟩
  | .local _ .vmem, ⟨9, _⟩ => ⟨S1x1, .f32⟩
  | .local _ .vmem, ⟨10, _⟩ => ⟨S1x195, .f32⟩
  | .local _ .vmem, ⟨11, _⟩ => ⟨S1x195, .f32⟩
  | .local _ .vmem, ⟨12, _⟩ => ⟨S1x78, .f32⟩
  | .local _ .vmem, ⟨13, _⟩ => ⟨S1x78, .f32⟩
  | .local _ .vmem, ⟨14, _⟩ => ⟨S4096x39, .f32⟩
  | .local _ .vmem, ⟨15, _⟩ => ⟨S4096x39, .f32⟩
  | .local _ .vmem, ⟨16, _⟩ => ⟨S4096x39, .f32⟩
  | .local _ .vmem, ⟨17, _⟩ => ⟨S4096x39, .f32⟩
  | _, _ => ⟨S256x2048x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x39 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S78x195 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x195 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S195x78 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x78 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x195 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x195 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x78 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x78 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x39 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x39 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S256x2048x39_S524288x39 : S256x2048x39.ShapeCasts S524288x39
  transposes_S195x78_S78x195_1_0 : S195x78.Transposes [1, 0] S78x195
  bitsLt_bf16_f32 : FTy.bits .bf16 < FTy.bits .f32
  transposes_S78x195_S195x78_1_0 : S78x195.Transposes [1, 0] S195x78
  shapeCasts_S195_S1x195 : S195.ShapeCasts S1x195
  shapeCasts_S78_S1x78 : S78.ShapeCasts S1x78
  shapeCasts_S1_S1x1 : S1.ShapeCasts S1x1
  inb_S4096x39_S4096x39_0_0 : ∀ a, (![0, 0] : Fin 2 → Nat) a + S4096x39.size a ≤ S4096x39.size a
  h_S4096x39 : 0 < S4096x39.numel
  shapeCasts_S4096x39_S4096x39 : S4096x39.ShapeCasts S4096x39
  concatenates_S4096x39_S4096x39_S4096x78_d1 : Shape.Concatenates [S4096x39, S4096x39] S4096x78 1
  inb_S78x195_S78x195_0_0 : ∀ a, (![0, 0] : Fin 2 → Nat) a + S78x195.size a ≤ S78x195.size a
  h_S78x195 : 0 < S78x195.numel
  shapeCasts_S78x195_S78x195 : S78x195.ShapeCasts S78x195
  inb_S1x195_S1x195_0_0 : ∀ a, (![0, 0] : Fin 2 → Nat) a + S1x195.size a ≤ S1x195.size a
  h_S1x195 : 0 < S1x195.numel
  shapeCasts_S1x195_S1x195 : S1x195.ShapeCasts S1x195
  broadcasts_S1x195_S4096x195 : S1x195.Broadcasts S4096x195
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x195 : S1x1.Broadcasts S4096x195
  reduces_S4096x195_S4096 : S4096x195.Reduces [1] S4096
  shapeCasts_S4096_S4096x1 : S4096.ShapeCasts S4096x1
  broadcasts_S4096x1_S4096x195 : S4096x1.Broadcasts S4096x195
  inb_S195x78_S195x78_0_0 : ∀ a, (![0, 0] : Fin 2 → Nat) a + S195x78.size a ≤ S195x78.size a
  h_S195x78 : 0 < S195x78.numel
  shapeCasts_S195x78_S195x78 : S195x78.ShapeCasts S195x78
  inb_S1x78_S1x78_0_0 : ∀ a, (![0, 0] : Fin 2 → Nat) a + S1x78.size a ≤ S1x78.size a
  h_S1x78 : 0 < S1x78.numel
  shapeCasts_S1x78_S1x78 : S1x78.ShapeCasts S1x78
  broadcasts_S1x78_S4096x78 : S1x78.Broadcasts S4096x78
  broadcasts_S1x1_S4096x78 : S1x1.Broadcasts S4096x78
  reduces_S4096x78_S4096 : S4096x78.Reduces [1] S4096
  broadcasts_S4096x1_S4096x78 : S4096x1.Broadcasts S4096x78
  slices_S4096x78_o0_0_S4096x39 : S4096x78.Slices ![0, 0] S4096x39
  slices_S4096x78_o0_39_S4096x39 : S4096x78.Slices ![0, 39] S4096x39
  shapeCasts_S524288x39_S256x2048x39 : S524288x39.ShapeCasts S256x2048x39
  dot_S4096x78_S78x195_S4096x195_1_0_0_1_n_n_wf : DotDims.WF S4096x78 S78x195 S4096x195 [1] [0] [0] [1] [] []
  dot_S4096x195_S195x78_S4096x78_1_0_0_1_n_n_wf : DotDims.WF S4096x195 S195x78 S4096x78 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x39.size a ≤ S524288x39.size a
  hwx0_0 : ∀ i : grid0.Coords, EltTy.bits .f32 = 32 ∨ (Rect.block (s := S524288x39) S4096x39.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x39.size a ≤ S524288x39.size a
  hwx0_1 : ∀ i : grid0.Coords, EltTy.bits .f32 = 32 ∨ (Rect.block (s := S524288x39) S4096x39.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S78x195.size a ≤ S78x195.size a
  hwx0_2 : ∀ i : grid0.Coords, EltTy.bits .bf16 = 32 ∨ (Rect.block (s := S78x195) S78x195.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x195.size a ≤ S1x195.size a
  hwx0_3 : ∀ i : grid0.Coords, EltTy.bits .f32 = 32 ∨ (Rect.block (s := S1x195) S1x195.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S195x78.size a ≤ S195x78.size a
  hwx0_4 : ∀ i : grid0.Coords, EltTy.bits .bf16 = 32 ∨ (Rect.block (s := S195x78) S195x78.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x78.size a ≤ S1x78.size a
  hwx0_5 : ∀ i : grid0.Coords, EltTy.bits .f32 = 32 ∨ (Rect.block (s := S1x78) S1x78.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x195.size a ≤ S1x195.size a
  hwx0_8 : ∀ i : grid0.Coords, EltTy.bits .f32 = 32 ∨ (Rect.block (s := S1x195) S1x195.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x195.size a ≤ S1x195.size a
  hwx0_9 : ∀ i : grid0.Coords, EltTy.bits .f32 = 32 ∨ (Rect.block (s := S1x195) S1x195.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x78.size a ≤ S1x78.size a
  hwx0_10 : ∀ i : grid0.Coords, EltTy.bits .f32 = 32 ∨ (Rect.block (s := S1x78) S1x78.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x78.size a ≤ S1x78.size a
  hwx0_11 : ∀ i : grid0.Coords, EltTy.bits .f32 = 32 ∨ (Rect.block (s := S1x78) S1x78.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4096x39.size a ≤ S524288x39.size a
  hwx0_12 : ∀ i : grid0.Coords, EltTy.bits .f32 = 32 ∨ (Rect.block (s := S524288x39) S4096x39.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x39.size a ≤ S524288x39.size a
  hwx0_13 : ∀ i : grid0.Coords, EltTy.bits .f32 = 32 ∨ (Rect.block (s := S524288x39) S4096x39.size (cc0_transform_13 i) (hinb0_13 i)).WholeWords (EltTy.packing .f32)

variable [Facts₀]

def dot_S4096x78_S78x195_S4096x195_1_0_0_1_n_n : DotDims S4096x78 S78x195 S4096x195 where
  lhsContracting := [1]
  rhsContracting := [0]
  lhsNonContracting := [0]
  rhsNonContracting := [1]
  lhsBatch := []
  rhsBatch := []
  wf := dot_S4096x78_S78x195_S4096x195_1_0_0_1_n_n_wf
def dot_S4096x195_S195x78_S4096x78_1_0_0_1_n_n : DotDims S4096x195 S195x78 S4096x78 where
  lhsContracting := [1]
  rhsContracting := [0]
  lhsNonContracting := [0]
  rhsNonContracting := [1]
  lhsBatch := []
  rhsBatch := []
  wf := dot_S4096x195_S195x78_S4096x78_1_0_0_1_n_n_wf

abbrev win0_0 : Pipeline.Window sig grid0 :=
  Pipeline.Window.ofSpec (Memref.whole main_v0) S4096x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x39.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S78x195.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x195.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S195x78.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x78.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x195.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x195.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x78.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S1x78.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v14_0) S4096x39.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v14_1) S4096x39.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S256x2048x39 : Shape := ⟨3, ![256, 2048, 39]⟩
abbrev S195x78 : Shape := ⟨2, ![195, 78]⟩
abbrev S195 : Shape := ⟨1, ![195]⟩
abbrev S78x195 : Shape := ⟨2, ![78, 195]⟩
abbrev S78 : Shape := ⟨1, ![78]⟩
abbrev S1 : Shape := ⟨1, ![1]⟩
abbrev S256x2048x78 : Shape := ⟨3, ![256, 2048, 78]⟩
abbrev S256x2048x195 : Shape := ⟨3, ![256, 2048, 195]⟩
abbrev S1x1x195 : Shape := ⟨3, ![1, 1, 195]⟩
abbrev S_ : Shape := ⟨0, ![]⟩
abbrev S1x1x1 : Shape := ⟨3, ![1, 1, 1]⟩
abbrev S256x2048 : Shape := ⟨2, ![256, 2048]⟩
abbrev S256x2048x1 : Shape := ⟨3, ![256, 2048, 1]⟩
abbrev S1x1x78 : Shape := ⟨3, ![1, 1, 78]⟩

abbrev nBuf : Space → Nat
  | .hbm => 96
  | .vmem => 0
  | .smem => 0
  | _ => 0

abbrev bufTy : (tb : Table) → Fin (tcTables nBuf tb) → BufTy
  | .hbm, ⟨0, _⟩ => ⟨S256x2048x39, .f32⟩
  | .hbm, ⟨1, _⟩ => ⟨S256x2048x39, .f32⟩
  | .hbm, ⟨2, _⟩ => ⟨S195x78, .f32⟩
  | .hbm, ⟨3, _⟩ => ⟨S195, .f32⟩
  | .hbm, ⟨4, _⟩ => ⟨S78x195, .f32⟩
  | .hbm, ⟨5, _⟩ => ⟨S78, .f32⟩
  | .hbm, ⟨6, _⟩ => ⟨S1, .f32⟩
  | .hbm, ⟨7, _⟩ => ⟨S1, .f32⟩
  | .hbm, ⟨8, _⟩ => ⟨S195, .f32⟩
  | .hbm, ⟨9, _⟩ => ⟨S195, .f32⟩
  | .hbm, ⟨10, _⟩ => ⟨S78, .f32⟩
  | .hbm, ⟨11, _⟩ => ⟨S78, .f32⟩
  | .hbm, ⟨12, _⟩ => ⟨S256x2048x78, .f32⟩
  | .hbm, ⟨13, _⟩ => ⟨S256x2048x195, .f32⟩
  | .hbm, ⟨14, _⟩ => ⟨S1x1x195, .f32⟩
  | .hbm, ⟨15, _⟩ => ⟨S256x2048x195, .f32⟩
  | .hbm, ⟨16, _⟩ => ⟨S256x2048x195, .f32⟩
  | .hbm, ⟨17, _⟩ => ⟨S_, .f32⟩
  | .hbm, ⟨18, _⟩ => ⟨S256x2048x195, .f32⟩
  | .hbm, ⟨19, _⟩ => ⟨S256x2048x195, .i1⟩
  | .hbm, ⟨20, _⟩ => ⟨S1x1x1, .f32⟩
  | .hbm, ⟨21, _⟩ => ⟨S256x2048x195, .f32⟩
  | .hbm, ⟨22, _⟩ => ⟨S256x2048x195, .f32⟩
  | .hbm, ⟨23, _⟩ => ⟨S256x2048x195, .f32⟩
  | .hbm, ⟨24, _⟩ => ⟨S_, .f32⟩
  | .hbm, ⟨25, _⟩ => ⟨S256x2048, .f32⟩
  | .hbm, ⟨26, _⟩ => ⟨S256x2048x1, .f32⟩
  | .hbm, ⟨27, _⟩ => ⟨S_, .f32⟩
  | .hbm, ⟨28, _⟩ => ⟨S256x2048x1, .f32⟩
  | .hbm, ⟨29, _⟩ => ⟨S256x2048x1, .f32⟩
  | .hbm, ⟨30, _⟩ => ⟨S256x2048x195, .f32⟩
  | .hbm, ⟨31, _⟩ => ⟨S256x2048x195, .f32⟩
  | .hbm, ⟨32, _⟩ => ⟨S256x2048x195, .f32⟩
  | .hbm, ⟨33, _⟩ => ⟨S_, .f32⟩
  | .hbm, ⟨34, _⟩ => ⟨S256x2048, .f32⟩
  | .hbm, ⟨35, _⟩ => ⟨S256x2048x1, .f32⟩
  | .hbm, ⟨36, _⟩ => ⟨S_, .f32⟩
  | .hbm, ⟨37, _⟩ => ⟨S256x2048x1, .f32⟩
  | .hbm, ⟨38, _⟩ => ⟨S256x2048x1, .f32⟩
  | .hbm, ⟨39, _⟩ => ⟨S256x2048x195, .f32⟩
  | .hbm, ⟨40, _⟩ => ⟨S256x2048x195, .f32⟩
  | .hbm, ⟨41, _⟩ => ⟨S_, .f32⟩
  | .hbm, ⟨42, _⟩ => ⟨S256x2048x1, .f32⟩
  | .hbm, ⟨43, _⟩ => ⟨S256x2048x1, .f32⟩
  | .hbm, ⟨44, _⟩ => ⟨S256x2048x1, .f32⟩
  | .hbm, ⟨45, _⟩ => ⟨S256x2048x195, .f32⟩
  | .hbm, ⟨46, _⟩ => ⟨S256x2048x195, .f32⟩
  | .hbm, ⟨47, _⟩ => ⟨S1x1x195, .f32⟩
  | .hbm, ⟨48, _⟩ => ⟨S256x2048x195, .f32⟩
  | .hbm, ⟨49, _⟩ => ⟨S256x2048x195, .f32⟩
  | .hbm, ⟨50, _⟩ => ⟨S1x1x195, .f32⟩
  | .hbm, ⟨51, _⟩ => ⟨S256x2048x195, .f32⟩
  | .hbm, ⟨52, _⟩ => ⟨S256x2048x195, .f32⟩
  | .hbm, ⟨53, _⟩ => ⟨S256x2048x78, .f32⟩
  | .hbm, ⟨54, _⟩ => ⟨S1x1x78, .f32⟩
  | .hbm, ⟨55, _⟩ => ⟨S256x2048x78, .f32⟩
  | .hbm, ⟨56, _⟩ => ⟨S256x2048x78, .f32⟩
  | .hbm, ⟨57, _⟩ => ⟨S_, .f32⟩
  | .hbm, ⟨58, _⟩ => ⟨S256x2048x78, .f32⟩
  | .hbm, ⟨59, _⟩ => ⟨S256x2048x78, .i1⟩
  | .hbm, ⟨60, _⟩ => ⟨S1x1x1, .f32⟩
  | .hbm, ⟨61, _⟩ => ⟨S256x2048x78, .f32⟩
  | .hbm, ⟨62, _⟩ => ⟨S256x2048x78, .f32⟩
  | .hbm, ⟨63, _⟩ => ⟨S256x2048x78, .f32⟩
  | .hbm, ⟨64, _⟩ => ⟨S_, .f32⟩
  | .hbm, ⟨65, _⟩ => ⟨S256x2048, .f32⟩
  | .hbm, ⟨66, _⟩ => ⟨S256x2048x1, .f32⟩
  | .hbm, ⟨67, _⟩ => ⟨S_, .f32⟩
  | .hbm, ⟨68, _⟩ => ⟨S256x2048x1, .f32⟩
  | .hbm, ⟨69, _⟩ => ⟨S256x2048x1, .f32⟩
  | .hbm, ⟨70, _⟩ => ⟨S256x2048x78, .f32⟩
  | .hbm, ⟨71, _⟩ => ⟨S256x2048x78, .f32⟩
  | .hbm, ⟨72, _⟩ => ⟨S256x2048x78, .f32⟩
  | .hbm, ⟨73, _⟩ => ⟨S_, .f32⟩
  | .hbm, ⟨74, _⟩ => ⟨S256x2048, .f32⟩
  | .hbm, ⟨75, _⟩ => ⟨S256x2048x1, .f32⟩
  | .hbm, ⟨76, _⟩ => ⟨S_, .f32⟩
  | .hbm, ⟨77, _⟩ => ⟨S256x2048x1, .f32⟩
  | .hbm, ⟨78, _⟩ => ⟨S256x2048x1, .f32⟩
  | .hbm, ⟨79, _⟩ => ⟨S256x2048x78, .f32⟩
  | .hbm, ⟨80, _⟩ => ⟨S256x2048x78, .f32⟩
  | .hbm, ⟨81, _⟩ => ⟨S_, .f32⟩
  | .hbm, ⟨82, _⟩ => ⟨S256x2048x1, .f32⟩
  | .hbm, ⟨83, _⟩ => ⟨S256x2048x1, .f32⟩
  | .hbm, ⟨84, _⟩ => ⟨S256x2048x1, .f32⟩
  | .hbm, ⟨85, _⟩ => ⟨S256x2048x78, .f32⟩
  | .hbm, ⟨86, _⟩ => ⟨S256x2048x78, .f32⟩
  | .hbm, ⟨87, _⟩ => ⟨S1x1x78, .f32⟩
  | .hbm, ⟨88, _⟩ => ⟨S256x2048x78, .f32⟩
  | .hbm, ⟨89, _⟩ => ⟨S256x2048x78, .f32⟩
  | .hbm, ⟨90, _⟩ => ⟨S1x1x78, .f32⟩
  | .hbm, ⟨91, _⟩ => ⟨S256x2048x78, .f32⟩
  | .hbm, ⟨92, _⟩ => ⟨S256x2048x78, .f32⟩
  | .hbm, ⟨93, _⟩ => ⟨S256x2048x78, .f32⟩
  | .hbm, ⟨94, _⟩ => ⟨S256x2048x39, .f32⟩
  | .hbm, ⟨95, _⟩ => ⟨S256x2048x39, .f32⟩
  | _, _ => ⟨S256x2048x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_cst_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_8 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  concatenates_S256x2048x39_S256x2048x39_S256x2048x78_d2 : Shape.Concatenates [S256x2048x39, S256x2048x39] S256x2048x78 2
  bcast_S195_S1x1x195_2 : S195.BroadcastsInDim S1x1x195 (![2] : Fin 1 → Fin S1x1x195.rank)
  bcast_S1x1x195_S256x2048x195_0_1_2 : S1x1x195.BroadcastsInDim S256x2048x195 (![0, 1, 2] : Fin 3 → Fin S256x2048x195.rank)
  bcast_S_S256x2048x195 : S_.BroadcastsInDim S256x2048x195 (![] : Fin 0 → Fin S256x2048x195.rank)
  bcast_S1_S1x1x1_2 : S1.BroadcastsInDim S1x1x1 (![2] : Fin 1 → Fin S1x1x1.rank)
  bcast_S1x1x1_S256x2048x195_0_1_2 : S1x1x1.BroadcastsInDim S256x2048x195 (![0, 1, 2] : Fin 3 → Fin S256x2048x195.rank)
  reducesTo_S256x2048x195_S256x2048_d2 : S256x2048x195.ReducesTo [2] S256x2048
  h_S_ : 0 < S_.numel
  bcast_S256x2048_S256x2048x1_0_1 : S256x2048.BroadcastsInDim S256x2048x1 (![0, 1] : Fin 2 → Fin S256x2048x1.rank)
  bcast_S_S256x2048x1 : S_.BroadcastsInDim S256x2048x1 (![] : Fin 0 → Fin S256x2048x1.rank)
  bcast_S256x2048x1_S256x2048x195_0_1_2 : S256x2048x1.BroadcastsInDim S256x2048x195 (![0, 1, 2] : Fin 3 → Fin S256x2048x195.rank)
  bcast_S78_S1x1x78_2 : S78.BroadcastsInDim S1x1x78 (![2] : Fin 1 → Fin S1x1x78.rank)
  bcast_S1x1x78_S256x2048x78_0_1_2 : S1x1x78.BroadcastsInDim S256x2048x78 (![0, 1, 2] : Fin 3 → Fin S256x2048x78.rank)
  bcast_S_S256x2048x78 : S_.BroadcastsInDim S256x2048x78 (![] : Fin 0 → Fin S256x2048x78.rank)
  bcast_S1x1x1_S256x2048x78_0_1_2 : S1x1x1.BroadcastsInDim S256x2048x78 (![0, 1, 2] : Fin 3 → Fin S256x2048x78.rank)
  reducesTo_S256x2048x78_S256x2048_d2 : S256x2048x78.ReducesTo [2] S256x2048
  bcast_S256x2048x1_S256x2048x78_0_1_2 : S256x2048x1.BroadcastsInDim S256x2048x78 (![0, 1, 2] : Fin 3 → Fin S256x2048x78.rank)
  slices_S256x2048x78_S256x2048x39_0_0_0 : S256x2048x78.Slices ![0, 0, 0] S256x2048x39
  slices_S256x2048x78_S256x2048x39_0_0_39 : S256x2048x78.Slices ![0, 0, 39] S256x2048x39
  dot_S256x2048x78_S195x78_S256x2048x195_2_1_01_0_n_n_wf : DotDims.WF S256x2048x78 S195x78 S256x2048x195 [2] [1] [0, 1] [0] [] []
  dot_S256x2048x195_S78x195_S256x2048x78_2_1_01_0_n_n_wf : DotDims.WF S256x2048x195 S78x195 S256x2048x78 [2] [1] [0, 1] [0] [] []

variable [Facts₀]

def dot_S256x2048x78_S195x78_S256x2048x195_2_1_01_0_n_n : DotDims S256x2048x78 S195x78 S256x2048x195 where
  lhsContracting := [2]
  rhsContracting := [1]
  lhsNonContracting := [0, 1]
  rhsNonContracting := [0]
  lhsBatch := []
  rhsBatch := []
  wf := dot_S256x2048x78_S195x78_S256x2048x195_2_1_01_0_n_n_wf
def dot_S256x2048x195_S78x195_S256x2048x78_2_1_01_0_n_n : DotDims S256x2048x195 S78x195 S256x2048x78 where
  lhsContracting := [2]
  rhsContracting := [1]
  lhsNonContracting := [0, 1]
  rhsNonContracting := [0]
  lhsBatch := []
  rhsBatch := []
  wf := dot_S256x2048x195_S78x195_S256x2048x78_2_1_01_0_n_n_wf

class Facts : Prop extends Facts₀ where

variable [Facts]
-- ==== Proof.RowNet.lean ====
/-
  One token's features through two dense layers, each followed by a leaky rectifier and a normalisation of the row,
  with the input added back at the end: the function both programs compute, one row at a time, in the two spellings
  the programs use.

  A row `v` of 78 numbers (a token's 39 features of the first array followed by its 39 of the second) goes through
  `z = W v + b`, then `u = z` where `z ≥ 0` and `a · z` elsewhere, then the row is centred and scaled to unit
  variance, multiplied by `α` and shifted by `β`; a second such layer maps the 195 results back to 78, and the
  input row is added.

  The two spellings differ in the normalisation only. With `m` the row's mean:
  * `normMoments`: the variance is the mean of the squares minus `m²`, and the centred entry is MULTIPLIED by the
    reciprocal square root of (variance + ε);
  * `normCentred`: the variance is the mean of the squared centred entries (the sums start from the zero word),
    and the centred entry is DIVIDED by the square root of (variance + ε).
  On real entries these are one function (NormLaw.lean); on the extended reals they need not be, since moving a factor
  across a sum fails at the infinities.

  The constants stay as the words the programs print: `nW` is the word of the row's length (195.0 or 78.0), ε the
  word `0x3727C5AC`, zero the word `0x00000000`.
-/
import Idealize.ShloMosaic.PureOps.Ideal
import Idealize.ShloMosaic.Lib.ValueIdx
import Mathlib.Algebra.BigOperators.Fin

noncomputable section

open scoped BigOperators

namespace Cert.RowNet

open Idealize.ShloMosaic Idealize.ShloMosaic.ValueIdx

/-- The zero word, the ε word. -/
abbrev zeroW : EReal := Ideal.ofBits .f32 0x00000000#32
abbrev epsW : EReal := Ideal.ofBits .f32 0x3727C5AC#32

/-- A token's two feature rows side by side: entries 0 … 38 the first, 39 … 77 the second. -/
def joinRow (xr yr : Fin 39 → EReal) : Fin 78 → EReal :=
  fun k => if h : k.val < 39 then xr ⟨k.val, h⟩ else yr ⟨k.val - 39, by have := k.isLt; omega⟩

/-- The dense layer: `(W v + b) j = ∑ k, v k · W j k + b j`, the weight stored output-major. -/
def affine {K N : Nat} (W : Fin N → Fin K → EReal) (b : Fin N → EReal) (v : Fin K → EReal) : Fin N → EReal :=
  fun j => (∑ k : Fin K, v k * W j k) + b j

/-- The leaky rectifier with slope `a` below zero. -/
def leaky (a z : EReal) : EReal := Scalar.select (Ideal.cmp .oge z zeroW) z (a * z)

/-- Mean and reciprocal deviation from the first two moments. -/
def meanM {N : Nat} (nW : BitVec 32) (u : Fin N → EReal) : EReal := Ideal.div (∑ j : Fin N, u j) (Ideal.ofBits .f32 nW)
def msqM {N : Nat} (nW : BitVec 32) (u : Fin N → EReal) : EReal :=
  Ideal.div (∑ j : Fin N, u j * u j) (Ideal.ofBits .f32 nW)
def invM {N : Nat} (nW : BitVec 32) (u : Fin N → EReal) : EReal :=
  Ideal.rsqrt (msqM nW u - meanM nW u * meanM nW u + epsW)

/-- The normalisation from the moments: `(u j − m) · rsqrt (E u² − m² + ε) · α j + β j`. -/
def normMoments {N : Nat} (nW : BitVec 32) (α β u : Fin N → EReal) : Fin N → EReal :=
  fun j => (u j - meanM nW u) * invM nW u * α j + β j

/-- Mean and deviation from the centred entries, the sums started from the zero word. -/
def meanC {N : Nat} (nW : BitVec 32) (u : Fin N → EReal) : EReal :=
  Ideal.div (zeroW + ∑ j : Fin N, u j) (Ideal.ofBits .f32 nW)
def varC {N : Nat} (nW : BitVec 32) (u : Fin N → EReal) : EReal :=
  Ideal.div (zeroW + ∑ j : Fin N, (u j - meanC nW u) * (u j - meanC nW u)) (Ideal.ofBits .f32 nW)

/-- The normalisation from the centred entries: `(u j − m) / √(E (u − m)² + ε) · α j + β j`. -/
def normCentred {N : Nat} (nW : BitVec 32) (α β u : Fin N → EReal) : Fin N → EReal :=
  fun j => Ideal.div (u j - meanC nW u) (Ideal.sqrt (varC nW u + epsW)) * α j + β j

/-- One layer in each spelling. -/
def layerMoments {K N : Nat} (nW : BitVec 32) (W : Fin N → Fin K → EReal) (b : Fin N → EReal) (a : EReal)
    (α β : Fin N → EReal) (v : Fin K → EReal) : Fin N → EReal :=
  normMoments nW α β (fun j => leaky a (affine W b v j))
def layerCentred {K N : Nat} (nW : BitVec 32) (W : Fin N → Fin K → EReal) (b : Fin N → EReal) (a : EReal)
    (α β : Fin N → EReal) (v : Fin K → EReal) : Fin N → EReal :=
  normCentred nW α β (fun j => leaky a (affine W b v j))

/-- The two layers and the input added back, in each spelling. -/
def netMoments (W1 : Fin 195 → Fin 78 → EReal) (b1 : Fin 195 → EReal) (a1 : EReal) (α1 β1 : Fin 195 → EReal)
    (W2 : Fin 78 → Fin 195 → EReal) (b2 : Fin 78 → EReal) (a2 : EReal) (α2 β2 : Fin 78 → EReal)
    (v : Fin 78 → EReal) : Fin 78 → EReal :=
  fun j => layerMoments 0x429C0000#32 W2 b2 a2 α2 β2 (layerMoments 0x43430000#32 W1 b1 a1 α1 β1 v) j + v j
def netCentred (W1 : Fin 195 → Fin 78 → EReal) (b1 : Fin 195 → EReal) (a1 : EReal) (α1 β1 : Fin 195 → EReal)
    (W2 : Fin 78 → Fin 195 → EReal) (b2 : Fin 78 → EReal) (a2 : EReal) (α2 β2 : Fin 78 → EReal)
    (v : Fin 78 → EReal) : Fin 78 → EReal :=
  fun j => layerCentred 0x429C0000#32 W2 b2 a2 α2 β2 (layerCentred 0x43430000#32 W1 b1 a1 α1 β1 v) j + v j

/-! ## The whole arrays -/

abbrev SX : Shape := ⟨3, ![256, 2048, 39]⟩
abbrev SW1 : Shape := ⟨2, ![195, 78]⟩
abbrev SW2 : Shape := ⟨2, ![78, 195]⟩
abbrev S195v : Shape := ⟨1, ![195]⟩
abbrev S78v : Shape := ⟨1, ![78]⟩
abbrev S1v : Shape := ⟨1, ![1]⟩

/-- Column `q` of the first half, column `q` of the second half, of a row of 78. -/
abbrev colX (q : Fin 39) : Fin 78 := ⟨q.val, by have := q.isLt; omega⟩
abbrev colY (q : Fin 39) : Fin 78 := ⟨q.val + 39, by have := q.isLt; omega⟩

/-- Token `(b, t)`'s row of the two arrays. -/
def tokenRow (X Y : SX.Idx → EReal) (b : Fin 256) (t : Fin 2048) : Fin 78 → EReal :=
  joinRow (fun k => X (ix3 b t k)) (fun k => Y (ix3 b t k))

/-- The result arrays in the moments spelling: entry `(b, t, q)` of the first is column `q` of the net's row, of the
    second column `q + 39`. -/
def resMoments (half : Fin 39 → Fin 78) (X Y : SX.Idx → EReal) (W1 : SW1.Idx → EReal) (b1 : S195v.Idx → EReal)
    (W2 : SW2.Idx → EReal) (b2 : S78v.Idx → EReal) (a1 a2 : S1v.Idx → EReal) (α1 β1 : S195v.Idx → EReal)
    (α2 β2 : S78v.Idx → EReal) : SX.Idx → EReal :=
  fun i => netMoments (fun n k => W1 (ix2 n k)) (fun n => b1 (ix1 n)) (a1 (ix1 (0 : Fin 1))) (fun n => α1 (ix1 n))
    (fun n => β1 (ix1 n)) (fun n k => W2 (ix2 n k)) (fun n => b2 (ix1 n)) (a2 (ix1 (0 : Fin 1)))
    (fun n => α2 (ix1 n)) (fun n => β2 (ix1 n)) (tokenRow X Y (i 0) (i 1)) (half (i 2))

/-- The same in the centred spelling. -/
def resCentred (half : Fin 39 → Fin 78) (X Y : SX.Idx → EReal) (W1 : SW1.Idx → EReal) (b1 : S195v.Idx → EReal)
    (W2 : SW2.Idx → EReal) (b2 : S78v.Idx → EReal) (a1 a2 : S1v.Idx → EReal) (α1 β1 : S195v.Idx → EReal)
    (α2 β2 : S78v.Idx → EReal) : SX.Idx → EReal :=
  fun i => netCentred (fun n k => W1 (ix2 n k)) (fun n => b1 (ix1 n)) (a1 (ix1 (0 : Fin 1))) (fun n => α1 (ix1 n))
    (fun n => β1 (ix1 n)) (fun n k => W2 (ix2 n k)) (fun n => b2 (ix1 n)) (a2 (ix1 (0 : Fin 1)))
    (fun n => α2 (ix1 n)) (fun n => β2 (ix1 n)) (tokenRow X Y (i 0) (i 1)) (half (i 2))

end Cert.RowNet

end
-- ==== Proof.RefRead.lean ====
/-
  The reference program read as the row network, centred spelling.

  Every entry of the reference's two results is an entry of one token's row pushed through the two dense layers:
  the joined array's row at token (b, t) is the token's 78 features; the first contraction and bias are the affine
  map; the comparison against the zero word and the selection are the leaky rectifier; the two sums from the zero
  word divided by the row length's word are the mean and the centred variance; the division by the square root,
  the scale and the shift finish the normalisation; the second layer repeats this with 78 outputs; the joined row
  is added back and the two results are the first and the last 39 columns.
-/
import proofs.«140718_j55018531062716_2_alg».proof.Proof.RefReadPatched
import proofs.«140718_j55018531062716_2_alg».proof.Proof.RowNet

noncomputable section

open scoped BigOperators

namespace Cert.RefRead

open Idealize.ShloMosaic Idealize.ShloMosaic.ValueIdx Cert.ReferenceIdeal Cert.ReferenceIdeal.ReadP Cert.RowNet

variable (x0 x1 : (⟨S256x2048x39, .f32⟩ : BufTy).Contents (Elt Ideal))
  (x2 : (⟨S195x78, .f32⟩ : BufTy).Contents (Elt Ideal)) (x3 : (⟨S195, .f32⟩ : BufTy).Contents (Elt Ideal))
  (x4 : (⟨S78x195, .f32⟩ : BufTy).Contents (Elt Ideal)) (x5 : (⟨S78, .f32⟩ : BufTy).Contents (Elt Ideal))
  (x6 x7 : (⟨S1, .f32⟩ : BufTy).Contents (Elt Ideal))
  (x8 x9 : (⟨S195, .f32⟩ : BufTy).Contents (Elt Ideal)) (x10 x11 : (⟨S78, .f32⟩ : BufTy).Contents (Elt Ideal))

/-! ## The joined array -/

/-- The joined array's row at token `(b, t)` is the token's row of 78 features. -/
theorem joined_at (b : Fin 256) (t : Fin 2048) (k : Fin 78) :
    val_main_v0 (F := Ideal) x0 x1 (ix3 b t k) = tokenRow x0 x1 b t k := by
  unfold val_main_v0 tokenRow joinRow
  by_cases h : k.val < 39
  · rw [dif_pos h]
    exact concatenate_pair_apply_left 2 x0 x1 _ (ix3 b t k) rfl (ix3 b t ⟨k.val, h⟩) fun a => by
      match a with
      | ⟨0, _⟩ => rfl
      | ⟨1, _⟩ => rfl
      | ⟨2, _⟩ => rfl
  · rw [dif_neg h]
    exact concatenate_pair_apply_right 2 x0 x1 _ (ix3 b t k) rfl rfl
      (ix3 b t ⟨k.val - 39, by have := k.isLt; omega⟩) (fun a ha => by
        match a with
        | ⟨0, _⟩ => rfl
        | ⟨1, _⟩ => rfl
        | ⟨2, _⟩ => exact absurd rfl ha) (by show k.val - 39 + 39 = k.val; omega)

/-! ## The first layer -/

/-- The first layer's affine image of token `(b, t)`'s row, rectified. -/
abbrev row1 (b : Fin 256) (t : Fin 2048) : Fin 195 → EReal := fun n =>
  leaky (x6 (ix1 (0 : Fin 1)))
    (affine (fun n k => x2 (ix2 n k)) (fun n => x3 (ix1 n)) (tokenRow x0 x1 b t) n)

/-- The first layer's output row for token `(b, t)`. -/
abbrev out1 (b : Fin 256) (t : Fin 2048) : Fin 195 → EReal :=
  layerCentred 0x43430000#32 (fun n k => x2 (ix2 n k)) (fun n => x3 (ix1 n)) (x6 (ix1 (0 : Fin 1)))
    (fun n => x8 (ix1 n)) (fun n => x9 (ix1 n)) (tokenRow x0 x1 b t)

/-- The contraction of the joined row with the weight's row `n`, plus the bias, is the affine map. -/
theorem v4_at (b : Fin 256) (t : Fin 2048) (n : Fin 195) :
    val_main_v4 (F := Ideal) x0 x1 x2 x3 (ix3 b t n)
      = affine (fun n k => x2 (ix2 n k)) (fun n => x3 (ix1 n)) (tokenRow x0 x1 b t) n := by
  have hl : ∀ k : Fin 78, lidx_main_v1 (ix3 b t n) k = ix3 b t k := fun k => funext fun a => by
    match a with
    | ⟨0, _⟩ => rfl
    | ⟨1, _⟩ => rfl
    | ⟨2, _⟩ => rfl
  have hr : ∀ k : Fin 78, ridx_main_v1 (ix3 b t n) k = ix2 n k := fun k => funext fun a => by
    match a with
    | ⟨0, _⟩ => rfl
    | ⟨1, _⟩ => rfl
  have hb : idx_main_v2 (idx_main_v3 (ix3 b t n)) = ix1 n := funext fun a => by
    match a with
    | ⟨0, _⟩ => rfl
  simp only [val_main_v4_apply, val_main_v1_apply, val_main_v3_apply, val_main_v2_apply, hl, hr, hb, joined_at]
  rfl

/-- The comparison with the zero word and the selection are the leaky rectifier. -/
theorem v10_at (b : Fin 256) (t : Fin 2048) (n : Fin 195) :
    val_main_v10 (F := Ideal) x0 x1 x2 x3 x6 (ix3 b t n) = row1 x0 x1 x2 x3 x6 b t n := by
  have hs : idx_main_v7 (idx_main_v8 (ix3 b t n)) = ix1 (0 : Fin 1) := funext fun a => by
    match a with
    | ⟨0, _⟩ => rfl
  simp only [val_main_v10_apply, val_main_v6_apply, val_main_v9_apply, val_main_v5_apply, val_main_cst_apply,
    val_main_v8_apply, val_main_v7_apply, hs, v4_at]
  rfl

/-- The row's sum from the zero word over the word of 195 is the mean. -/
theorem v14_at (b : Fin 256) (t : Fin 2048) (z : Fin 1) :
    val_main_v14 (F := Ideal) x0 x1 x2 x3 x6 (ix3 b t z) = meanC 0x43430000#32 (row1 x0 x1 x2 x3 x6 b t) := by
  have hk : ∀ k : Fin 195, idx_main_v11 (idx_main_v12 (ix3 b t z)) k = ix3 b t k := fun k => funext fun a => by
    match a with
    | ⟨0, _⟩ => rfl
    | ⟨1, _⟩ => rfl
    | ⟨2, _⟩ => rfl
  simp only [val_main_v14_apply, val_main_v12_apply, val_main_v13_apply, val_main_cst_1_apply, val_main_v11_apply,
    val_main_cst_0_apply, hk, v10_at]
  rfl

/-- The centred squares' sum from the zero word over the word of 195 is the variance. -/
theorem v21_at (b : Fin 256) (t : Fin 2048) (z : Fin 1) :
    val_main_v21 (F := Ideal) x0 x1 x2 x3 x6 (ix3 b t z) = varC 0x43430000#32 (row1 x0 x1 x2 x3 x6 b t) := by
  have hk : ∀ k : Fin 195, idx_main_v18 (idx_main_v19 (ix3 b t z)) k = ix3 b t k := fun k => funext fun a => by
    match a with
    | ⟨0, _⟩ => rfl
    | ⟨1, _⟩ => rfl
    | ⟨2, _⟩ => rfl
  have hm : ∀ k : Fin 195, idx_main_v15 (ix3 b t k) = ix3 b t (⟨0, Nat.one_pos⟩ : Fin 1) := fun k => funext fun a => by
    match a with
    | ⟨0, _⟩ => rfl
    | ⟨1, _⟩ => rfl
    | ⟨2, _⟩ => rfl
  simp only [val_main_v21_apply, val_main_v19_apply, val_main_v20_apply, val_main_cst_3_apply, val_main_v18_apply,
    val_main_cst_2_apply, hk, val_main_v17_apply, val_main_v16_apply, val_main_v15_apply, hm, v10_at, v14_at]
  rfl

/-- The centred entry over the deviation, scaled and shifted, is the first layer's output. -/
theorem v34_at (b : Fin 256) (t : Fin 2048) (n : Fin 195) :
    val_main_v34 (F := Ideal) x0 x1 x2 x3 x6 x8 x9 (ix3 b t n) = out1 x0 x1 x2 x3 x6 x8 x9 b t n := by
  have hm : idx_main_v22 (ix3 b t n) = ix3 b t (⟨0, Nat.one_pos⟩ : Fin 1) := funext fun a => by
    match a with
    | ⟨0, _⟩ => rfl
    | ⟨1, _⟩ => rfl
    | ⟨2, _⟩ => rfl
  have hs : idx_main_v27 (ix3 b t n) = ix3 b t (⟨0, Nat.one_pos⟩ : Fin 1) := funext fun a => by
    match a with
    | ⟨0, _⟩ => rfl
    | ⟨1, _⟩ => rfl
    | ⟨2, _⟩ => rfl
  have ha : idx_main_v29 (idx_main_v30 (ix3 b t n)) = ix1 n := funext fun a => by
    match a with
    | ⟨0, _⟩ => rfl
  have hb : idx_main_v32 (idx_main_v33 (ix3 b t n)) = ix1 n := funext fun a => by
    match a with
    | ⟨0, _⟩ => rfl
  simp only [val_main_v34_apply, val_main_v31_apply, val_main_v33_apply, val_main_v32_apply, val_main_v30_apply,
    val_main_v29_apply, val_main_v28_apply, val_main_v27_apply, val_main_v26_apply, val_main_v25_apply,
    val_main_v24_apply, val_main_cst_4_apply, val_main_v23_apply, val_main_v22_apply, hm, hs, ha, hb, v10_at, v14_at,
    v21_at]
  rfl

/-! ## The second layer -/

/-- The second layer's affine image of the first layer's output, rectified. -/
abbrev row2 (b : Fin 256) (t : Fin 2048) : Fin 78 → EReal := fun n =>
  leaky (x7 (ix1 (0 : Fin 1)))
    (affine (fun n k => x4 (ix2 n k)) (fun n => x5 (ix1 n)) (out1 x0 x1 x2 x3 x6 x8 x9 b t) n)

/-- The second layer's output row for token `(b, t)`. -/
abbrev out2 (b : Fin 256) (t : Fin 2048) : Fin 78 → EReal :=
  layerCentred 0x429C0000#32 (fun n k => x4 (ix2 n k)) (fun n => x5 (ix1 n)) (x7 (ix1 (0 : Fin 1)))
    (fun n => x10 (ix1 n)) (fun n => x11 (ix1 n)) (out1 x0 x1 x2 x3 x6 x8 x9 b t)

/-- The contraction of the first layer's output with the second weight's row `n`, plus the bias. -/
theorem v38_at (b : Fin 256) (t : Fin 2048) (n : Fin 78) :
    val_main_v38 (F := Ideal) x0 x1 x2 x3 x4 x5 x6 x8 x9 (ix3 b t n)
      = affine (fun n k => x4 (ix2 n k)) (fun n => x5 (ix1 n)) (out1 x0 x1 x2 x3 x6 x8 x9 b t) n := by
  have hl : ∀ k : Fin 195, lidx_main_v35 (ix3 b t n) k = ix3 b t k := fun k => funext fun a => by
    match a with
    | ⟨0, _⟩ => rfl
    | ⟨1, _⟩ => rfl
    | ⟨2, _⟩ => rfl
  have hr : ∀ k : Fin 195, ridx_main_v35 (ix3 b t n) k = ix2 n k := fun k => funext fun a => by
    match a with
    | ⟨0, _⟩ => rfl
    | ⟨1, _⟩ => rfl
  have hb : idx_main_v36 (idx_main_v37 (ix3 b t n)) = ix1 n := funext fun a => by
    match a with
    | ⟨0, _⟩ => rfl
  simp only [val_main_v38_apply, val_main_v35_apply, val_main_v37_apply, val_main_v36_apply, hl, hr, hb, v34_at]
  rfl

/-- The second leaky rectifier. -/
theorem v44_at (b : Fin 256) (t : Fin 2048) (n : Fin 78) :
    val_main_v44 (F := Ideal) x0 x1 x2 x3 x4 x5 x6 x7 x8 x9 (ix3 b t n) = row2 x0 x1 x2 x3 x4 x5 x6 x7 x8 x9 b t n := by
  have hs : idx_main_v41 (idx_main_v42 (ix3 b t n)) = ix1 (0 : Fin 1) := funext fun a => by
    match a with
    | ⟨0, _⟩ => rfl
  simp only [val_main_v44_apply, val_main_v40_apply, val_main_v43_apply, val_main_v39_apply, val_main_cst_5_apply,
    val_main_v42_apply, val_main_v41_apply, hs, v38_at]
  rfl

/-- The second row's mean, over the word of 78. -/
theorem v48_at (b : Fin 256) (t : Fin 2048) (z : Fin 1) :
    val_main_v48 (F := Ideal) x0 x1 x2 x3 x4 x5 x6 x7 x8 x9 (ix3 b t z)
      = meanC 0x429C0000#32 (row2 x0 x1 x2 x3 x4 x5 x6 x7 x8 x9 b t) := by
  have hk : ∀ k : Fin 78, idx_main_v45 (idx_main_v46 (ix3 b t z)) k = ix3 b t k := fun k => funext fun a => by
    match a with
    | ⟨0, _⟩ => rfl
    | ⟨1, _⟩ => rfl
    | ⟨2, _⟩ => rfl
  simp only [val_main_v48_apply, val_main_v46_apply, val_main_v47_apply, val_main_cst_7_apply, val_main_v45_apply,
    val_main_cst_6_apply, hk, v44_at]
  rfl

/-- The second row's variance, over the word of 78. -/
theorem v55_at (b : Fin 256) (t : Fin 2048) (z : Fin 1) :
    val_main_v55 (F := Ideal) x0 x1 x2 x3 x4 x5 x6 x7 x8 x9 (ix3 b t z)
      = varC 0x429C0000#32 (row2 x0 x1 x2 x3 x4 x5 x6 x7 x8 x9 b t) := by
  have hk : ∀ k : Fin 78, idx_main_v52 (idx_main_v53 (ix3 b t z)) k = ix3 b t k := fun k => funext fun a => by
    match a with
    | ⟨0, _⟩ => rfl
    | ⟨1, _⟩ => rfl
    | ⟨2, _⟩ => rfl
  have hm : ∀ k : Fin 78, idx_main_v49 (ix3 b t k) = ix3 b t (⟨0, Nat.one_pos⟩ : Fin 1) := fun k => funext fun a => by
    match a with
    | ⟨0, _⟩ => rfl
    | ⟨1, _⟩ => rfl
    | ⟨2, _⟩ => rfl
  simp only [val_main_v55_apply, val_main_v53_apply, val_main_v54_apply, val_main_cst_9_apply, val_main_v52_apply,
    val_main_cst_8_apply, hk, val_main_v51_apply, val_main_v50_apply, val_main_v49_apply, hm, v44_at, v48_at]
  rfl

/-- The second layer's output. -/
theorem v68_at (b : Fin 256) (t : Fin 2048) (n : Fin 78) :
    val_main_v68 (F := Ideal) x0 x1 x2 x3 x4 x5 x6 x7 x8 x9 x10 x11 (ix3 b t n)
      = out2 x0 x1 x2 x3 x4 x5 x6 x7 x8 x9 x10 x11 b t n := by
  have hm : idx_main_v56 (ix3 b t n) = ix3 b t (⟨0, Nat.one_pos⟩ : Fin 1) := funext fun a => by
    match a with
    | ⟨0, _⟩ => rfl
    | ⟨1, _⟩ => rfl
    | ⟨2, _⟩ => rfl
  have hs : idx_main_v61 (ix3 b t n) = ix3 b t (⟨0, Nat.one_pos⟩ : Fin 1) := funext fun a => by
    match a with
    | ⟨0, _⟩ => rfl
    | ⟨1, _⟩ => rfl
    | ⟨2, _⟩ => rfl
  have ha : idx_main_v63 (idx_main_v64 (ix3 b t n)) = ix1 n := funext fun a => by
    match a with
    | ⟨0, _⟩ => rfl
  have hb : idx_main_v66 (idx_main_v67 (ix3 b t n)) = ix1 n := funext fun a => by
    match a with
    | ⟨0, _⟩ => rfl
  simp only [val_main_v68_apply, val_main_v65_apply, val_main_v67_apply, val_main_v66_apply, val_main_v64_apply,
    val_main_v63_apply, val_main_v62_apply, val_main_v61_apply, val_main_v60_apply, val_main_v59_apply,
    val_main_v58_apply, val_main_cst_10_apply, val_main_v57_apply, val_main_v56_apply, hm, hs, ha, hb, v44_at, v48_at,
    v55_at]
  rfl

/-! ## The input added back, and the two halves -/

/-- The sum with the joined array is the whole network on the token's row. -/
theorem v69_at (b : Fin 256) (t : Fin 2048) (k : Fin 78) :
    val_main_v69 (F := Ideal) x0 x1 x2 x3 x4 x5 x6 x7 x8 x9 x10 x11 (ix3 b t k)
      = netCentred (fun n k => x2 (ix2 n k)) (fun n => x3 (ix1 n)) (x6 (ix1 (0 : Fin 1))) (fun n => x8 (ix1 n))
          (fun n => x9 (ix1 n)) (fun n k => x4 (ix2 n k)) (fun n => x5 (ix1 n)) (x7 (ix1 (0 : Fin 1)))
          (fun n => x10 (ix1 n)) (fun n => x11 (ix1 n)) (tokenRow x0 x1 b t) k := by
  simp only [val_main_v69_apply, v68_at, joined_at]
  rfl

/-- The reference's first result is the first 39 columns of the network's rows. -/
theorem ref_first :
    val_main_v70 (F := Ideal) x0 x1 x2 x3 x4 x5 x6 x7 x8 x9 x10 x11
      = resCentred colX x0 x1 x2 x3 x4 x5 x6 x7 x8 x9 x10 x11 := by
  funext i
  obtain ⟨b, t, q, rfl⟩ : ∃ b t q, i = ix3 b t q := ⟨_, _, _, eq_ix3 i⟩
  have hi : idx_main_v70 (ix3 b t q) = ix3 b t (colX q) := funext fun a => by
    match a with
    | ⟨0, _⟩ => rfl
    | ⟨1, _⟩ => rfl
    | ⟨2, _⟩ => rfl
  rw [val_main_v70_apply, hi, v69_at]
  rfl

/-- The reference's second result is the last 39 columns of the network's rows. -/
theorem ref_second :
    val_main_v71 (F := Ideal) x0 x1 x2 x3 x4 x5 x6 x7 x8 x9 x10 x11
      = resCentred colY x0 x1 x2 x3 x4 x5 x6 x7 x8 x9 x10 x11 := by
  funext i
  obtain ⟨b, t, q, rfl⟩ : ∃ b t q, i = ix3 b t q := ⟨_, _, _, eq_ix3 i⟩
  have hi : idx_main_v71 (ix3 b t q) = ix3 b t (colY q) := funext fun a => Fin.ext (by
    match a with
    | ⟨0, _⟩ => rfl
    | ⟨1, _⟩ => rfl
    | ⟨2, _⟩ => exact Nat.add_comm 39 q.val)
  rw [val_main_v71_apply, hi, v69_at]
  rfl

end Cert.RefRead

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«140718_j55018531062716_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibUnitSpread.lean ====
/-
  A single row of lanes, or a single number, repeated over a block, read at an entry.

  * A [1, 1, C] array repeated over an [A, B, C] block reads, at (r, p, q), its entry (0, 0, q) (spread_lane).
  * A [1, 1] array repeated over an [A, B] block reads, at (r, p), its one entry (0, 0) (spread_one).
-/
import Idealize.ShloMosaic.Lib.ValueIdx
import Idealize.ShloMosaic.Lib.Pipeline.Value

noncomputable section

namespace Cert.Lib.UnitSpread

open Idealize.ShloMosaic Idealize.ShloMosaic.ValueIdx

variable {α : Type} {A B C : Nat}

/-- A [1, 1, C] array repeated along both leading axes: entry (r, p, q) is the array's entry (0, 0, q). -/
theorem spread_lane (v : (⟨3, ![1, 1, C]⟩ : Shape).Idx → α) (h : (⟨3, ![1, 1, C]⟩ : Shape).Broadcasts ⟨3, ![A, B, C]⟩)
    (r : Fin A) (p : Fin B) (q : Fin C) :
    broadcastTo ⟨3, ![A, B, C]⟩ v h (ix3 r p q) = v (ix3 (0 : Fin 1) (0 : Fin 1) q) :=
  broadcastTo_apply v h (ix3 r p q) (ix3 (0 : Fin 1) (0 : Fin 1) q) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by
        show q.val = if C = 1 then 0 else q.val
        split
        · have := q.isLt; omega
        · rfl)

/-- A [1, 1] array repeated over an [A, B] block: every entry is the array's one entry. -/
theorem spread_one (v : (⟨2, ![1, 1]⟩ : Shape).Idx → α) (h : (⟨2, ![1, 1]⟩ : Shape).Broadcasts ⟨2, ![A, B]⟩)
    (r : Fin A) (p : Fin B) : broadcastTo ⟨2, ![A, B]⟩ v h (ix2 r p) = v (ix2 (0 : Fin 1) (0 : Fin 1)) :=
  broadcastTo_apply v h (ix2 r p) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else p.val; rw [if_pos rfl])

end Cert.Lib.UnitSpread

end
-- ==== Proof.LibNormBlock.lean ====
/-
  Two row-wise pieces of a kernel body over an `M × N` block, read at an entry at the ideal values.

  * The leaky rectifier: `select (z ≥ 0) z (a · z)` with the zero a splat scalar word and the slope a `1 × 1` array
    repeated over the block (`leakyBlock`, `leakyBlock_apply`).
  * The normalisation of each row from its first two moments: with `m` the row's sum over the word `nW` and `s` the sum
    of the row's squares over `nW`, entry `(p, q)` of `(u − m) · rsqrt (s − m·m + ε)` — the sums taken along the lanes,
    set up as an `M × 1` column and repeated along the `N` lanes — is `(u (p, q) − m p) · rsqrt (s p − m p · m p + ε)`
    with the sums over the row's `N` entries (`momentsNormBlock`, `momentsNorm_apply`).
-/
import Idealize.ShloMosaic.Lib.ValueIdx
import Idealize.ShloMosaic.Lib.Pipeline.Value
import Idealize.ShloMosaic.PureOps.Ideal.Laws
import proofs.«140718_j55018531062716_2_alg».proof.Proof.LibBlockOps
import proofs.«140718_j55018531062716_2_alg».proof.Proof.LibColumn
import proofs.«140718_j55018531062716_2_alg».proof.Proof.LibUnitSpread

noncomputable section

open scoped BigOperators

namespace Cert.Lib.NormBlock

open Idealize.ShloMosaic Idealize.ShloMosaic.ValueIdx

variable {M N : Nat}

/-- The leaky rectifier over a block, as a kernel body spells it. -/
def leakyBlock (z : FVec Ideal ⟨2, ![M, N]⟩ .f32) (a : FVec Ideal ⟨2, ![1, 1]⟩ .f32) (zW : BitVec 32)
    (hb : (⟨2, ![1, 1]⟩ : Shape).Broadcasts ⟨2, ![M, N]⟩) : FVec Ideal ⟨2, ![M, N]⟩ .f32 :=
  select (cmpf .oge z (broadcast ⟨2, ![M, N]⟩ (Scalar.ofBits (F := Ideal) .f32 zW))) z
    (mulf (broadcastTo ⟨2, ![M, N]⟩ a hb) z)

/-- The leaky rectifier over a block, at entry `(p, q)`. -/
theorem leakyBlock_apply (z : FVec Ideal ⟨2, ![M, N]⟩ .f32) (a : FVec Ideal ⟨2, ![1, 1]⟩ .f32) (zW : BitVec 32)
    (hb : (⟨2, ![1, 1]⟩ : Shape).Broadcasts ⟨2, ![M, N]⟩) (p : Fin M) (q : Fin N) :
    leakyBlock z a zW hb (ix2 p q)
      = Scalar.select (Ideal.cmp .oge (z (ix2 p q)) (Ideal.ofBits .f32 zW)) (z (ix2 p q))
          (a (ix2 (0 : Fin 1) (0 : Fin 1)) * z (ix2 p q)) := by
  unfold leakyBlock
  rw [select_apply, cmpf_apply, mulf_apply, Cert.Lib.UnitSpread.spread_one]
  rfl

/-- A row's mean column repeated along the lanes, at `(p, q)`: the row's sum over the word `nW`. -/
theorem meanSpread_apply (u : FVec Ideal ⟨2, ![M, N]⟩ .f32) (nW : BitVec 32)
    (hr : (⟨2, ![M, N]⟩ : Shape).Reduces [1] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    broadcastTo ⟨2, ![M, N]⟩
        (divf (shapeCast ⟨2, ![M, 1]⟩ (multiReduction .add [1] ⟨1, ![M]⟩ u 0x00000000#32 hr hφ hacc) hc)
          (broadcast ⟨2, ![M, 1]⟩ (Scalar.ofBits (F := Ideal) .f32 nW))) hb (ix2 p q)
      = Ideal.div (∑ j : Fin N, u (ix2 p j)) (Ideal.ofBits .f32 nW) := by
  rw [Cert.Lib.Column.colBroadcast_apply, divf_apply, Cert.Lib.Column.col_apply, Cert.Lib.BlockOps.rowSum_apply]
  rfl

/-- The normalisation of each row from its two moments, as a kernel body spells it. -/
def momentsNormBlock (u : FVec Ideal ⟨2, ![M, N]⟩ .f32) (nW eW : BitVec 32)
    (hr : (⟨2, ![M, N]⟩ : Shape).Reduces [1] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩) :
    FVec Ideal ⟨2, ![M, N]⟩ .f32 :=
  mulf
    (subf u (broadcastTo ⟨2, ![M, N]⟩
      (divf (shapeCast ⟨2, ![M, 1]⟩ (multiReduction .add [1] ⟨1, ![M]⟩ u 0x00000000#32 hr hφ hacc) hc)
        (broadcast ⟨2, ![M, 1]⟩ (Scalar.ofBits (F := Ideal) .f32 nW))) hb))
    (broadcastTo ⟨2, ![M, N]⟩
      (rsqrt (addf
        (subf
          (divf (shapeCast ⟨2, ![M, 1]⟩ (multiReduction .add [1] ⟨1, ![M]⟩ (mulf u u) 0x00000000#32 hr hφ hacc) hc)
            (broadcast ⟨2, ![M, 1]⟩ (Scalar.ofBits (F := Ideal) .f32 nW)))
          (mulf
            (divf (shapeCast ⟨2, ![M, 1]⟩ (multiReduction .add [1] ⟨1, ![M]⟩ u 0x00000000#32 hr hφ hacc) hc)
              (broadcast ⟨2, ![M, 1]⟩ (Scalar.ofBits (F := Ideal) .f32 nW)))
            (divf (shapeCast ⟨2, ![M, 1]⟩ (multiReduction .add [1] ⟨1, ![M]⟩ u 0x00000000#32 hr hφ hacc) hc)
              (broadcast ⟨2, ![M, 1]⟩ (Scalar.ofBits (F := Ideal) .f32 nW)))))
        (broadcast ⟨2, ![M, 1]⟩ (Scalar.ofBits (F := Ideal) .f32 eW)))) hb)

/-- The normalisation from the two moments, at entry `(p, q)`. -/
theorem momentsNorm_apply (u : FVec Ideal ⟨2, ![M, N]⟩ .f32) (nW eW : BitVec 32)
    (hr : (⟨2, ![M, N]⟩ : Shape).Reduces [1] ⟨1, ![M]⟩) (hφ : FKind.Formats FTy.f32)
    (hacc : (0x00000000#32 : BitVec FTy.f32.bits) = FKind.add.neutral .f32 hφ)
    (hc : (⟨1, ![M]⟩ : Shape).ShapeCasts ⟨2, ![M, 1]⟩) (hb : (⟨2, ![M, 1]⟩ : Shape).Broadcasts ⟨2, ![M, N]⟩)
    (p : Fin M) (q : Fin N) :
    momentsNormBlock u nW eW hr hφ hacc hc hb (ix2 p q)
      = (u (ix2 p q) - Ideal.div (∑ j : Fin N, u (ix2 p j)) (Ideal.ofBits .f32 nW))
          * Ideal.rsqrt (Ideal.div (∑ j : Fin N, u (ix2 p j) * u (ix2 p j)) (Ideal.ofBits .f32 nW)
              - Ideal.div (∑ j : Fin N, u (ix2 p j)) (Ideal.ofBits .f32 nW)
                * Ideal.div (∑ j : Fin N, u (ix2 p j)) (Ideal.ofBits .f32 nW)
              + Ideal.ofBits .f32 eW) := by
  unfold momentsNormBlock
  rw [mulf_apply, subf_apply, meanSpread_apply, Cert.Lib.Column.colBroadcast_apply]
  show _ * Ideal.rsqrt
      (Ideal.div (shapeCast ⟨2, ![M, 1]⟩ (multiReduction .add [1] ⟨1, ![M]⟩ (mulf u u) 0x00000000#32 hr hφ hacc) hc
          (ix2 p (0 : Fin 1))) (Ideal.ofBits .f32 nW)
        - Ideal.div (shapeCast ⟨2, ![M, 1]⟩ (multiReduction .add [1] ⟨1, ![M]⟩ u 0x00000000#32 hr hφ hacc) hc
            (ix2 p (0 : Fin 1))) (Ideal.ofBits .f32 nW)
          * Ideal.div (shapeCast ⟨2, ![M, 1]⟩ (multiReduction .add [1] ⟨1, ![M]⟩ u 0x00000000#32 hr hφ hacc) hc
            (ix2 p (0 : Fin 1))) (Ideal.ofBits .f32 nW)
        + Ideal.ofBits .f32 eW) = _
  rw [Cert.Lib.Column.col_apply, Cert.Lib.Column.col_apply, Cert.Lib.BlockOps.rowSum_apply,
    Cert.Lib.BlockOps.rowSum_apply]
  rfl

end Cert.Lib.NormBlock

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibRowForms.lean ====
/-
  General facts about arrays with a leading unit axis, read at an entry.

  * A [1, B, C] slab viewed as a [B, C] matrix reads, at (p, q), the slab at (0, p, q) (unslab_apply).
  * A [1, M] row viewed as a vector of length M reads, at p, the row at (0, p) (rowVec_apply).
  * A [1, N] row repeated down M rows reads, at (p, q), the row at (0, q) (rowBroadcast_apply).
  * A vector of length M viewed as a [1, M] row reads, at (0, p), the vector at p (vecRow_apply).
-/
import Idealize.ShloMosaic.Lib.ValueIdx
import Idealize.ShloMosaic.Lib.Pipeline.Value

noncomputable section

namespace Cert.Lib.RowForms

open Idealize.ShloMosaic Idealize.ShloMosaic.ValueIdx

variable {α : Type} {M N B C : Nat}

/-- A [1, B, C] slab viewed as a [B, C] matrix: entry (p, q) is entry (0, p, q). -/
theorem unslab_apply (v : (⟨3, ![1, B, C]⟩ : Shape).Idx → α) (h : (⟨3, ![1, B, C]⟩ : Shape).ShapeCasts ⟨2, ![B, C]⟩)
    (p : Fin B) (q : Fin C) : shapeCast ⟨2, ![B, C]⟩ v h (ix2 p q) = v (ix3 (0 : Fin 1) p q) :=
  shapeCast_apply v h (ix2 p q) (ix3 (0 : Fin 1) p q) (by
    rw [Shape.rowMajor_val_two, Shape.rowMajor_val_three]
    show (0 * B + p.val) * C + q.val = p.val * C + q.val
    rw [Nat.zero_mul, Nat.zero_add])

/-- A [1, M] row viewed as a vector of length M: entry p is entry (0, p). -/
theorem rowVec_apply (v : (⟨2, ![1, M]⟩ : Shape).Idx → α) (h : (⟨2, ![1, M]⟩ : Shape).ShapeCasts ⟨1, ![M]⟩)
    (p : Fin M) : shapeCast ⟨1, ![M]⟩ v h (ix1 p) = v (ix2 (0 : Fin 1) p) :=
  shapeCast_apply v h (ix1 p) (ix2 (0 : Fin 1) p) (by
    rw [Shape.rowMajor_val_one, Shape.rowMajor_val_two]
    show 0 * M + p.val = p.val
    rw [Nat.zero_mul, Nat.zero_add])

/-- A [1, N] row repeated down M rows: entry (p, q) is the row's entry (0, q). -/
theorem rowBroadcast_apply (v : (⟨2, ![1, N]⟩ : Shape).Idx → α) (h : (⟨2, ![1, N]⟩ : Shape).Broadcasts ⟨2, ![M, N]⟩)
    (p : Fin M) (q : Fin N) : broadcastTo ⟨2, ![M, N]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by
        show q.val = if N = 1 then 0 else q.val
        split
        · have := q.isLt; omega
        · rfl)

/-- A vector of length M viewed as a [1, M] row: entry (0, p) is entry p. -/
theorem vecRow_apply (v : (⟨1, ![M]⟩ : Shape).Idx → α) (h : (⟨1, ![M]⟩ : Shape).ShapeCasts ⟨2, ![1, M]⟩)
    (p : Fin M) : shapeCast ⟨2, ![1, M]⟩ v h (ix2 (0 : Fin 1) p) = v (ix1 p) :=
  shapeCast_apply v h (ix2 (0 : Fin 1) p) (ix1 p) (by
    rw [Shape.rowMajor_val_one, Shape.rowMajor_val_two]
    show p.val = 0 * M + p.val
    rw [Nat.zero_mul, Nat.zero_add])

end Cert.Lib.RowForms

end
-- ==== Proof.LibConcatRead.lean ====
/-
  Two-piece concatenations of small rank read at an entry.

  A concatenation of two arrays along an axis reads, at an index whose coordinate on that axis is below the first
  piece's extent, the first piece at the same coordinates; at or past it, the second piece with that coordinate lowered
  by the first extent. Stated here for the three forms a row- and lane-packing meets: two rank-2 arrays side by side
  (along the columns), two rank-2 arrays stacked (along the rows), and two rank-1 arrays end to end.
-/
import Idealize.ShloMosaic.Lib.ValueIdx
import Idealize.ShloMosaic.Lib.Pipeline.Value

noncomputable section

namespace Cert.Lib.ConcatRead

open Idealize.ShloMosaic Idealize.ShloMosaic.ValueIdx

variable {α : Type}

/-- Side by side, a column of the first piece. -/
theorem cols_left {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₁)
    (hq : q'.val = q.val) :
    concatenate ⟨2, ![a, n]⟩ 1 [⟨⟨2, ![a, b₁]⟩, x₁⟩, ⟨⟨2, ![a, b₂]⟩, x₂⟩] h (ix2 p q) = x₁ (ix2 p q') :=
  concatenate_pair_apply_left 1 x₁ x₂ h (ix2 p q) rfl (ix2 p q') fun b => by
    match b with
    | ⟨0, _⟩ => rfl
    | ⟨1, _⟩ => exact hq

/-- Side by side, a column of the second piece. -/
theorem cols_right {a b₁ b₂ n : Nat} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (p : Fin a) (q : Fin n) (q' : Fin b₂)
    (hq : q'.val + b₁ = q.val) :
    concatenate ⟨2, ![a, n]⟩ 1 [⟨⟨2, ![a, b₁]⟩, x₁⟩, ⟨⟨2, ![a, b₂]⟩, x₂⟩] h (ix2 p q) = x₂ (ix2 p q') :=
  concatenate_pair_apply_right 1 x₁ x₂ h (ix2 p q) rfl rfl (ix2 p q') (fun b hb => by
    match b with
    | ⟨0, _⟩ => rfl
    | ⟨1, _⟩ => exact absurd rfl hb) hq

/-- Stacked, a row of the first piece. -/
theorem rows_left {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₁)
    (hp : p'.val = p.val) :
    concatenate ⟨2, ![n, b]⟩ 0 [⟨⟨2, ![a₁, b]⟩, x₁⟩, ⟨⟨2, ![a₂, b]⟩, x₂⟩] h (ix2 p q) = x₁ (ix2 p' q) :=
  concatenate_pair_apply_left 0 x₁ x₂ h (ix2 p q) rfl (ix2 p' q) fun b => by
    match b with
    | ⟨0, _⟩ => exact hp
    | ⟨1, _⟩ => rfl

/-- Stacked, a row of the second piece. -/
theorem rows_right {a₁ a₂ b n : Nat} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0) (p : Fin n) (q : Fin b) (p' : Fin a₂)
    (hp : p'.val + a₁ = p.val) :
    concatenate ⟨2, ![n, b]⟩ 0 [⟨⟨2, ![a₁, b]⟩, x₁⟩, ⟨⟨2, ![a₂, b]⟩, x₂⟩] h (ix2 p q) = x₂ (ix2 p' q) :=
  concatenate_pair_apply_right 0 x₁ x₂ h (ix2 p q) rfl rfl (ix2 p' q) (fun b hb => by
    match b with
    | ⟨0, _⟩ => exact absurd rfl hb
    | ⟨1, _⟩ => rfl) hp

/-- End to end, an entry of the first piece. -/
theorem vec_left {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₁) (hp : p'.val = p.val) :
    concatenate ⟨1, ![n]⟩ 0 [⟨⟨1, ![a₁]⟩, x₁⟩, ⟨⟨1, ![a₂]⟩, x₂⟩] h (ix1 p) = x₁ (ix1 p') :=
  concatenate_pair_apply_left 0 x₁ x₂ h (ix1 p) rfl (ix1 p') fun b => by
    match b with
    | ⟨0, _⟩ => exact hp

/-- End to end, an entry of the second piece. -/
theorem vec_right {a₁ a₂ n : Nat} (x₁ : (⟨1, ![a₁]⟩ : Shape).Idx → α) (x₂ : (⟨1, ![a₂]⟩ : Shape).Idx → α)
    (h : Shape.Concatenates [⟨1, ![a₁]⟩, ⟨1, ![a₂]⟩] ⟨1, ![n]⟩ 0) (p : Fin n) (p' : Fin a₂) (hp : p'.val + a₁ = p.val) :
    concatenate ⟨1, ![n]⟩ 0 [⟨⟨1, ![a₁]⟩, x₁⟩, ⟨⟨1, ![a₂]⟩, x₂⟩] h (ix1 p) = x₂ (ix1 p') :=
  concatenate_pair_apply_right 0 x₁ x₂ h (ix1 p) rfl rfl (ix1 p') (fun b hb => by
    match b with
    | ⟨0, _⟩ => exact absurd rfl hb) hp

end Cert.Lib.ConcatRead

end
-- ==== Proof.KernelRow.lean ====
/-
  The kernel body's arithmetic at one entry of a block of 4096 token rows.

  A grid point loads 4096 rows of each feature array (39 columns each) and the whole of every parameter array, and
  stores 4096 rows of each result array. Entry `(p, q)` of what it stores is column `q` (first result) or `q + 39`
  (second result) of the two-layer net of RowNet.lean, in the spelling that normalises from the two moments, applied to
  row `p` of the two loaded feature blocks side by side, with the parameters read off the loaded parameter arrays:
  the first weight is loaded input-major (`78 × 195`), so its entry `(k, n)` is the net's `W1 n k`; likewise the second.

  The body is a composition of four kinds of block operations — the two feature blocks side by side, a matrix product
  into zero plus a bias row, the leaky rectifier, and the normalisation of each row from its moments — each read at an
  entry by its own lemma; a change of float format is the identity at the ideal values.
-/
import proofs.«140718_j55018531062716_2_alg».proof.Proof.Gen.KernelIdeal.Frame
import proofs.«140718_j55018531062716_2_alg».proof.Proof.RowNet
import proofs.«140718_j55018531062716_2_alg».proof.Proof.LibNormBlock
import proofs.«140718_j55018531062716_2_alg».proof.Proof.LibPlainDot
import proofs.«140718_j55018531062716_2_alg».proof.Proof.LibRowForms
import proofs.«140718_j55018531062716_2_alg».proof.Proof.LibConcatRead
import Idealize.ShloMosaic.Lib.ValueIdx
import Idealize.ShloMosaic.Lib.Pipeline.Value

noncomputable section

open scoped BigOperators

namespace Cert.KernelRow

open Cert.KernelIdeal Cert.KernelIdeal.Gen Idealize.ShloMosaic Idealize.ShloMosaic.ValueIdx Cert.RowNet
open Cert.Lib.NormBlock

/-- The two products' dimension numbers are those of a plain `M × K` by `K × N` product. -/
theorem dims1 : dot_S4096x78_S78x195_S4096x195_1_0_0_1_n_n = DotDims.plain 4096 78 195 := rfl
theorem dims2 : dot_S4096x195_S195x78_S4096x78_1_0_0_1_n_n = DotDims.plain 4096 195 78 := rfl

theorem hz : (![0, 0] : Fin 2 → Nat) = fun _ => 0 := funext fun a => by fin_cases a <;> rfl

/-- The two feature blocks side by side, at row `p`: that token's joined row. -/
theorem joined_apply (x0 x1 : Vec Ideal S4096x39 .f32) (p : Fin 4096) (k : Fin 78) :
    concatenate S4096x78 1 [⟨S4096x39, x0⟩, ⟨S4096x39, x1⟩] concatenates_S4096x39_S4096x39_S4096x78_d1 (ix2 p k)
      = joinRow (fun k => x0 (ix2 p k)) (fun k => x1 (ix2 p k)) k := by
  unfold joinRow
  by_cases h : k.val < 39
  · rw [dif_pos h]
    exact Cert.Lib.ConcatRead.cols_left x0 x1 _ p k ⟨k.val, h⟩ rfl
  · rw [dif_neg h]
    exact Cert.Lib.ConcatRead.cols_right x0 x1 _ p k ⟨k.val - 39, by have := k.isLt; omega⟩ (by
      show k.val - 39 + 39 = k.val
      omega)

/-- A loaded `1 × N` row repeated down the block's rows, at `(p, j)`: the row's entry `j`. -/
theorem castRow_apply {N : Nat} (x : (⟨2, ![1, N]⟩ : Shape).Idx → EReal)
    (hc : (⟨2, ![1, N]⟩ : Shape).ShapeCasts ⟨2, ![1, N]⟩) (hb : (⟨2, ![1, N]⟩ : Shape).Broadcasts ⟨2, ![4096, N]⟩)
    (p : Fin 4096) (j : Fin N) :
    broadcastTo ⟨2, ![4096, N]⟩ (shapeCast ⟨2, ![1, N]⟩ x hc) hb (ix2 p j) = x (ix2 (0 : Fin 1) j) := by
  rw [shapeCast_self]
  exact Cert.Lib.RowForms.rowBroadcast_apply x hb p j

/-! ## The first layer -/

/-- The first product plus its bias row, over the block. -/
def pre1 (x0 x1 : Vec Ideal S4096x39 .f32) (x2 : Vec Ideal S78x195 .bf16) (x3 : Vec Ideal S1x195 .f32) :
    FVec Ideal S4096x195 .f32 :=
  addf (matmul dot_S4096x78_S78x195_S4096x195_1_0_0_1_n_n none
      (truncf .bf16 (concatenate S4096x78 1 [⟨S4096x39, shapeCast S4096x39 x0 shapeCasts_S4096x39_S4096x39⟩,
        ⟨S4096x39, shapeCast S4096x39 x1 shapeCasts_S4096x39_S4096x39⟩] concatenates_S4096x39_S4096x39_S4096x78_d1)
        bitsLt_bf16_f32)
      (shapeCast S78x195 x2 shapeCasts_S78x195_S78x195 : FVec Ideal S78x195 .bf16) (constant S4096x195 .f32 0x00000000#32))
    (broadcastTo S4096x195 (shapeCast S1x195 x3 shapeCasts_S1x195_S1x195) broadcasts_S1x195_S4096x195)

theorem pre1_apply (x0 x1 : Vec Ideal S4096x39 .f32) (x2 : Vec Ideal S78x195 .bf16) (x3 : Vec Ideal S1x195 .f32)
    (p : Fin 4096) (j : Fin 195) :
    pre1 x0 x1 x2 x3 (ix2 p j)
      = affine (fun n k => x2 (ix2 k n)) (fun n => x3 (ix2 (0 : Fin 1) n))
          (joinRow (fun k => x0 (ix2 p k)) (fun k => x1 (ix2 p k))) j := by
  unfold pre1
  rw [addf_apply, dims1]
  show FloatOps.matmul (DotDims.plain 4096 78 195) none _ _ (constant ⟨2, ![4096, 195]⟩ .f32 0x00000000#32) (ix2 p j)
      + _ = _
  rw [Cert.Lib.PlainDot.matmul_zero_apply, castRow_apply]
  unfold affine
  refine congrArg (· + _) (Finset.sum_congr rfl fun k _ => ?_)
  rw [truncf_apply, joined_apply]
  simp only [shapeCast_self]

/-- The first layer's activations before the normalisation, on row `p`. -/
def act1 (x0 x1 : Vec Ideal S4096x39 .f32) (x2 : Vec Ideal S78x195 .bf16) (x3 : Vec Ideal S1x195 .f32)
    (x6 : Vec Ideal S1x1 .f32) (p : Fin 4096) : Fin 195 → EReal :=
  fun n => leaky (x6 (ix2 (0 : Fin 1) (0 : Fin 1)))
    (affine (fun n k => x2 (ix2 k n)) (fun n => x3 (ix2 (0 : Fin 1) n))
      (joinRow (fun k => x0 (ix2 p k)) (fun k => x1 (ix2 p k))) n)

/-- The body's first payload is the moments normalisation of the leaky rectifier of `pre1`. -/
theorem pay6_eq (x0 x1 : Vec Ideal S4096x39 .f32) (x2 : Vec Ideal S78x195 .bf16) (x3 : Vec Ideal S1x195 .f32)
    (x6 : Vec Ideal S1x1 .f32) :
    k0_pay6 x0 x1 x2 x3 x6
      = momentsNormBlock (M := 4096) (N := 195)
          (leakyBlock (M := 4096) (N := 195) (pre1 x0 x1 x2 x3) (shapeCast S1x1 x6 shapeCasts_S1x1_S1x1) 0x00000000#32
            broadcasts_S1x1_S4096x195)
          0x43430000#32 0x3727C5AC#32 reduces_S4096x195_S4096 (.inl rfl) rfl shapeCasts_S4096_S4096x1
          broadcasts_S4096x1_S4096x195 := rfl

theorem act1_block (x0 x1 : Vec Ideal S4096x39 .f32) (x2 : Vec Ideal S78x195 .bf16) (x3 : Vec Ideal S1x195 .f32)
    (x6 : Vec Ideal S1x1 .f32) (p : Fin 4096) (j : Fin 195) :
    leakyBlock (M := 4096) (N := 195) (pre1 x0 x1 x2 x3) (shapeCast S1x1 x6 shapeCasts_S1x1_S1x1) 0x00000000#32
        broadcasts_S1x1_S4096x195 (ix2 p j) = act1 x0 x1 x2 x3 x6 p j := by
  rw [leakyBlock_apply, pre1_apply, shapeCast_self]
  rfl

/-- Entry `(p, n)` of the first payload: the centred, scaled activation. -/
theorem pay6_apply (x0 x1 : Vec Ideal S4096x39 .f32) (x2 : Vec Ideal S78x195 .bf16) (x3 : Vec Ideal S1x195 .f32)
    (x6 : Vec Ideal S1x1 .f32) (p : Fin 4096) (n : Fin 195) :
    k0_pay6 x0 x1 x2 x3 x6 (ix2 p n)
      = (act1 x0 x1 x2 x3 x6 p n - meanM 0x43430000#32 (act1 x0 x1 x2 x3 x6 p))
          * invM 0x43430000#32 (act1 x0 x1 x2 x3 x6 p) := by
  rw [pay6_eq]
  refine (momentsNorm_apply (M := 4096) (N := 195) _ _ _ _ _ _ _ _ p n).trans ?_
  simp only [act1_block]
  rfl

/-! ## The second layer -/

/-- The first layer's output over the block: scaled by `α` and shifted by `β`, rows of 195. -/
def in2 (v37 : FVec Ideal S4096x195 .f32) (v39 : FVec Ideal S1x195 .f32) (x9 : Vec Ideal S1x195 .f32) :
    FVec Ideal S4096x195 .f32 :=
  addf (mulf v37 (broadcastTo S4096x195 v39 broadcasts_S1x195_S4096x195))
    (broadcastTo S4096x195 (shapeCast S1x195 x9 shapeCasts_S1x195_S1x195) broadcasts_S1x195_S4096x195)

theorem in2_apply (v37 : FVec Ideal S4096x195 .f32) (v39 : FVec Ideal S1x195 .f32) (x9 : Vec Ideal S1x195 .f32)
    (p : Fin 4096) (n : Fin 195) :
    in2 v37 v39 x9 (ix2 p n) = v37 (ix2 p n) * v39 (ix2 (0 : Fin 1) n) + x9 (ix2 (0 : Fin 1) n) := by
  unfold in2
  rw [addf_apply, mulf_apply, shapeCast_self, Cert.Lib.RowForms.rowBroadcast_apply,
    Cert.Lib.RowForms.rowBroadcast_apply]

/-- The second product plus its bias row, over the block. -/
def pre2 (h : FVec Ideal S4096x195 .f32) (x4 : Vec Ideal S195x78 .bf16) (x5 : Vec Ideal S1x78 .f32) :
    FVec Ideal S4096x78 .f32 :=
  addf (matmul dot_S4096x195_S195x78_S4096x78_1_0_0_1_n_n none (truncf .bf16 h bitsLt_bf16_f32)
      (shapeCast S195x78 x4 shapeCasts_S195x78_S195x78 : FVec Ideal S195x78 .bf16) (constant S4096x78 .f32 0x00000000#32))
    (broadcastTo S4096x78 (shapeCast S1x78 x5 shapeCasts_S1x78_S1x78) broadcasts_S1x78_S4096x78)

theorem pre2_apply (h : FVec Ideal S4096x195 .f32) (x4 : Vec Ideal S195x78 .bf16) (x5 : Vec Ideal S1x78 .f32)
    (p : Fin 4096) (j : Fin 78) :
    pre2 h x4 x5 (ix2 p j)
      = affine (fun j n => x4 (ix2 n j)) (fun j => x5 (ix2 (0 : Fin 1) j)) (fun n => h (ix2 p n)) j := by
  unfold pre2
  rw [addf_apply, dims2]
  show FloatOps.matmul (DotDims.plain 4096 195 78) none _ _ (constant ⟨2, ![4096, 78]⟩ .f32 0x00000000#32) (ix2 p j)
      + _ = _
  rw [Cert.Lib.PlainDot.matmul_zero_apply, castRow_apply]
  unfold affine
  refine congrArg (· + _) (Finset.sum_congr rfl fun n _ => ?_)
  rw [truncf_apply, shapeCast_self]

/-- The body's second payload: the moments normalisation of the leaky rectifier of `pre2`, scaled by `α`. -/
theorem pay8_eq (v37 : FVec Ideal S4096x195 .f32) (v39 : FVec Ideal S1x195 .f32) (x9 : Vec Ideal S1x195 .f32)
    (x4 : Vec Ideal S195x78 .bf16) (x5 : Vec Ideal S1x78 .f32) (x7 : Vec Ideal S1x1 .f32) (x10 : Vec Ideal S1x78 .f32) :
    k0_pay8 v37 v39 x9 x4 x5 x7 x10
      = mulf (momentsNormBlock (M := 4096) (N := 78)
          (leakyBlock (M := 4096) (N := 78) (pre2 (in2 v37 v39 x9) x4 x5) (shapeCast S1x1 x7 shapeCasts_S1x1_S1x1)
            0x00000000#32 broadcasts_S1x1_S4096x78)
          0x429C0000#32 0x3727C5AC#32 reduces_S4096x78_S4096 (.inl rfl) rfl shapeCasts_S4096_S4096x1
          broadcasts_S4096x1_S4096x78)
        (broadcastTo S4096x78 (shapeCast S1x78 x10 shapeCasts_S1x78_S1x78) broadcasts_S1x78_S4096x78) := rfl

/-- The second layer's activations before the normalisation, on row `p`, from the first layer's output row `h`. -/
def act2 (x4 : Vec Ideal S195x78 .bf16) (x5 : Vec Ideal S1x78 .f32) (x7 : Vec Ideal S1x1 .f32)
    (h : Fin 195 → EReal) : Fin 78 → EReal :=
  fun j => leaky (x7 (ix2 (0 : Fin 1) (0 : Fin 1)))
    (affine (fun j n => x4 (ix2 n j)) (fun j => x5 (ix2 (0 : Fin 1) j)) h j)

theorem pay8_apply (v37 : FVec Ideal S4096x195 .f32) (v39 : FVec Ideal S1x195 .f32) (x9 : Vec Ideal S1x195 .f32)
    (x4 : Vec Ideal S195x78 .bf16) (x5 : Vec Ideal S1x78 .f32) (x7 : Vec Ideal S1x1 .f32) (x10 : Vec Ideal S1x78 .f32)
    (p : Fin 4096) (j : Fin 78) :
    k0_pay8 v37 v39 x9 x4 x5 x7 x10 (ix2 p j)
      = (act2 x4 x5 x7 (fun n => v37 (ix2 p n) * v39 (ix2 (0 : Fin 1) n) + x9 (ix2 (0 : Fin 1) n)) j
            - meanM 0x429C0000#32 (act2 x4 x5 x7 (fun n => v37 (ix2 p n) * v39 (ix2 (0 : Fin 1) n) + x9 (ix2 (0 : Fin 1) n))))
          * invM 0x429C0000#32 (act2 x4 x5 x7 (fun n => v37 (ix2 p n) * v39 (ix2 (0 : Fin 1) n) + x9 (ix2 (0 : Fin 1) n)))
          * x10 (ix2 (0 : Fin 1) j) := by
  have hu : ∀ j : Fin 78, leakyBlock (M := 4096) (N := 78) (pre2 (in2 v37 v39 x9) x4 x5)
      (shapeCast S1x1 x7 shapeCasts_S1x1_S1x1) 0x00000000#32 broadcasts_S1x1_S4096x78 (ix2 p j)
        = act2 x4 x5 x7 (fun n => v37 (ix2 p n) * v39 (ix2 (0 : Fin 1) n) + x9 (ix2 (0 : Fin 1) n)) j := fun j => by
    rw [leakyBlock_apply, pre2_apply, shapeCast_self]
    simp only [in2_apply]
    rfl
  rw [pay8_eq, mulf_apply]
  refine (congrArg₂ (· * ·) (momentsNorm_apply (M := 4096) (N := 78) _ _ _ _ _ _ _ _ p j)
    (castRow_apply x10 shapeCasts_S1x78_S1x78 broadcasts_S1x78_S4096x78 p j)).trans ?_
  simp only [hu]
  rfl

/-! ## What a point stores -/

/-- The net of RowNet.lean with its parameters read off a point's loaded parameter arrays. -/
def blockNet (x2 : Vec Ideal S78x195 .bf16) (x3 : Vec Ideal S1x195 .f32) (x4 : Vec Ideal S195x78 .bf16)
    (x5 : Vec Ideal S1x78 .f32) (x6 x7 : Vec Ideal S1x1 .f32) (x8 x9 : Vec Ideal S1x195 .f32)
    (x10 x11 : Vec Ideal S1x78 .f32) (v : Fin 78 → EReal) : Fin 78 → EReal :=
  netMoments (fun n k => x2 (ix2 k n)) (fun n => x3 (ix2 (0 : Fin 1) n)) (x6 (ix2 (0 : Fin 1) (0 : Fin 1)))
    (fun n => x8 (ix2 (0 : Fin 1) n)) (fun n => x9 (ix2 (0 : Fin 1) n)) (fun j n => x4 (ix2 n j))
    (fun j => x5 (ix2 (0 : Fin 1) j)) (x7 (ix2 (0 : Fin 1) (0 : Fin 1))) (fun j => x10 (ix2 (0 : Fin 1) j))
    (fun j => x11 (ix2 (0 : Fin 1) j)) v

/-- The second layer's normalised output plus its shift, at `(p, j)`: the net's row before the input is added back. -/
theorem pay1_apply (x0 x1 : Vec Ideal S4096x39 .f32) (x2 : Vec Ideal S78x195 .bf16) (x3 : Vec Ideal S1x195 .f32)
    (x4 : Vec Ideal S195x78 .bf16) (x5 : Vec Ideal S1x78 .f32) (x6 x7 : Vec Ideal S1x1 .f32)
    (x8 x9 : Vec Ideal S1x195 .f32) (x10 x11 : Vec Ideal S1x78 .f32) (p : Fin 4096) (j : Fin 78) :
    k0_pay1 (k0_pay8 (k0_pay6 x0 x1 x2 x3 x6) (k0_pay7 x8) x9 x4 x5 x7 x10) x11 (ix2 p j)
        + joinRow (fun k => x0 (ix2 p k)) (fun k => x1 (ix2 p k)) j
      = blockNet x2 x3 x4 x5 x6 x7 x8 x9 x10 x11 (joinRow (fun k => x0 (ix2 p k)) (fun k => x1 (ix2 p k))) j := by
  unfold k0_pay1 k0_pay7
  dsimp only
  rw [addf_apply, shapeCast_self, shapeCast_self, Cert.Lib.RowForms.rowBroadcast_apply, pay8_apply]
  simp only [pay6_apply]
  rfl

/-- Entry `(p, q)` of what a point stores into the first result's block. -/
theorem out12_apply (x0 x1 : Vec Ideal S4096x39 .f32) (x2 : Vec Ideal S78x195 .bf16) (x3 : Vec Ideal S1x195 .f32)
    (x4 : Vec Ideal S195x78 .bf16) (x5 : Vec Ideal S1x78 .f32) (x6 x7 : Vec Ideal S1x1 .f32)
    (x8 x9 : Vec Ideal S1x195 .f32) (x10 x11 : Vec Ideal S1x78 .f32) (p : Fin 4096) (q : Fin 39) :
    out0_12 x0 x1 x2 x3 x4 x5 x6 x7 x8 x9 x10 x11 (ix2 p q)
      = blockNet x2 x3 x4 x5 x6 x7 x8 x9 x10 x11 (joinRow (fun k => x0 (ix2 p k)) (fun k => x1 (ix2 p k))) (colX q) := by
  unfold out0_12
  rw [View.canon_unit_zero hz]
  simp only [View.ld_unit_zero (S := S4096x39) hz, View.ld_unit_zero (S := S78x195) hz,
    View.ld_unit_zero (S := S1x195) hz, View.ld_unit_zero (S := S1x1) hz, View.ld_unit_zero (S := S195x78) hz,
    View.ld_unit_zero (S := S1x78) hz]
  rw [← pay1_apply]
  unfold k0_pay2 k0_pay4
  dsimp only
  rw [addf_apply, shapeCast_self]
  refine congrArg₂ (· + ·) (extractStridedSlice_apply _ _ _ (ix2 p q) (ix2 p (colX q)) fun a => ?_) ?_
  · match a with
    | ⟨0, _⟩ => show p.val = 0 + p.val; omega
    | ⟨1, _⟩ => show q.val = 0 + q.val; omega
  · unfold joinRow
    rw [dif_pos (show (colX q).val < 39 from q.isLt)]

/-- Entry `(p, q)` of what a point stores into the second result's block. -/
theorem out13_apply (x0 x1 : Vec Ideal S4096x39 .f32) (x2 : Vec Ideal S78x195 .bf16) (x3 : Vec Ideal S1x195 .f32)
    (x4 : Vec Ideal S195x78 .bf16) (x5 : Vec Ideal S1x78 .f32) (x6 x7 : Vec Ideal S1x1 .f32)
    (x8 x9 : Vec Ideal S1x195 .f32) (x10 x11 : Vec Ideal S1x78 .f32) (p : Fin 4096) (q : Fin 39) :
    out0_13 x0 x1 x2 x3 x4 x5 x6 x7 x8 x9 x10 x11 (ix2 p q)
      = blockNet x2 x3 x4 x5 x6 x7 x8 x9 x10 x11 (joinRow (fun k => x0 (ix2 p k)) (fun k => x1 (ix2 p k))) (colY q) := by
  unfold out0_13
  rw [View.canon_unit_zero hz]
  simp only [View.ld_unit_zero (S := S4096x39) hz, View.ld_unit_zero (S := S78x195) hz,
    View.ld_unit_zero (S := S1x195) hz, View.ld_unit_zero (S := S1x1) hz, View.ld_unit_zero (S := S195x78) hz,
    View.ld_unit_zero (S := S1x78) hz]
  rw [← pay1_apply]
  unfold k0_pay3 k0_pay5
  dsimp only
  rw [addf_apply, shapeCast_self]
  refine congrArg₂ (· + ·) (extractStridedSlice_apply _ _ _ (ix2 p q) (ix2 p (colY q)) fun a => ?_) ?_
  · match a with
    | ⟨0, _⟩ => show p.val = 0 + p.val; omega
    | ⟨1, _⟩ => show q.val + 39 = 39 + q.val; omega
  · unfold joinRow
    rw [dif_neg (show ¬ (colY q).val < 39 from by show ¬ q.val + 39 < 39; omega)]
    exact congrArg (fun k => x1 (ix2 p k)) (Fin.ext (by show q.val = q.val + 39 - 39; omega))

end Cert.KernelRow

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.KernelHost.lean ====
/-
  The kernel program's host operations around its one region, read at an entry.

  Before the region the program reshapes the two token arrays to one row per token (row b·2048 + t is token (b, t)),
  transposes the two weight matrices (and narrows them, which changes nothing on the extended reals), and views each
  vector as a one-row matrix. After the region it splits the rows of the two result matrices back into tokens.
-/
import proofs.«140718_j55018531062716_2_alg».proof.Proof.Gen.KernelIdeal.Frame
import proofs.«140718_j55018531062716_2_alg».proof.Proof.LibReshape
import proofs.«140718_j55018531062716_2_alg».proof.Proof.LibRowForms
import Idealize.ShloMosaic.Lib.ValueIdx
import Idealize.ShloMosaic.Lib.Pipeline.Value

set_option maxRecDepth 16384

noncomputable section

namespace Cert.KernelHost

open Idealize.ShloMosaic Idealize.ShloMosaic.TcCoe Idealize.ShloMosaic.Tactic Idealize.ShloMosaic.ValueIdx
open Idealize.SL.Sem
open Cert.KernelIdeal Cert.KernelIdeal.Gen

variable (m : (ℓ : Loc nD τ sig) → Buf (Elt Ideal) ℓ) (c : Dev nD)

/-! ## The staged arrays as the region finds them -/

/-- The first token array, one row per token. -/
theorem V_main_v0_eq :
    (V m c main_v0 : S524288x39.Idx → EReal)
      = shapeCast S524288x39 (m ((c : Thread nD τ).loc main_arg0)) shapeCasts_S256x2048x39_S524288x39 := by
  show StableHlo.after hostOps0 (fun b => m (c, b)) (Proc.devRef .tc main_v0) = _
  after_results
  rfl

/-- Row `b·2048 + t` of the first staged array is token `(b, t)` of the first argument. -/
theorem V_x (b : Fin 256) (t : Fin 2048) (k : Fin 39) (r : Fin 524288) (hr : r.val = b.val * 2048 + t.val) :
    (V m c main_v0 : S524288x39.Idx → EReal) (ix2 r k) = m ((c : Thread nD τ).loc main_arg0) (ix3 b t k) := by
  rw [V_main_v0_eq]
  exact Cert.Lib.Reshape.merge_apply _ _ b t k r hr

/-- The second token array, one row per token. -/
theorem V_main_v1_eq :
    (V m c main_v1 : S524288x39.Idx → EReal)
      = shapeCast S524288x39 (m ((c : Thread nD τ).loc main_arg1)) shapeCasts_S256x2048x39_S524288x39 := by
  show StableHlo.after hostOps0 (fun b => m (c, b)) (Proc.devRef .tc main_v1) = _
  after_results
  rfl

/-- Row `b·2048 + t` of the second staged array is token `(b, t)` of the second argument. -/
theorem V_y (b : Fin 256) (t : Fin 2048) (k : Fin 39) (r : Fin 524288) (hr : r.val = b.val * 2048 + t.val) :
    (V m c main_v1 : S524288x39.Idx → EReal) (ix2 r k) = m ((c : Thread nD τ).loc main_arg1) (ix3 b t k) := by
  rw [V_main_v1_eq]
  exact Cert.Lib.Reshape.merge_apply _ _ b t k r hr

/-- The first weight matrix transposed (the narrowing is the identity on the extended reals). -/
theorem V_main_v3_eq :
    @Eq (S78x195.Idx → EReal) (V m c main_v3)
      (truncf (F := Ideal) .bf16
        (transpose S78x195 [1, 0] (m ((c : Thread nD τ).loc main_arg2)) transposes_S195x78_S78x195_1_0)
        bitsLt_bf16_f32) := by
  show StableHlo.after hostOps0 (fun b => m (c, b)) (Proc.devRef .tc main_v3) = _
  after_results

/-- Entry `(k, n)` of the first staged weight is entry `(n, k)` of the first weight argument. -/
theorem V_w1 (k : Fin 78) (n : Fin 195) :
    (V m c main_v3 : S78x195.Idx → EReal) (ix2 k n) = m ((c : Thread nD τ).loc main_arg2) (ix2 n k) := by
  rw [V_main_v3_eq]
  exact transpose_apply [1, 0] _ transposes_S195x78_S78x195_1_0 (ix2 k n) (ix2 n k) fun b => by
    match b with
    | ⟨0, _⟩ => rfl
    | ⟨1, _⟩ => rfl

/-- The second weight matrix transposed. -/
theorem V_main_v5_eq :
    @Eq (S195x78.Idx → EReal) (V m c main_v5)
      (truncf (F := Ideal) .bf16
        (transpose S195x78 [1, 0] (m ((c : Thread nD τ).loc main_arg4)) transposes_S78x195_S195x78_1_0)
        bitsLt_bf16_f32) := by
  show StableHlo.after hostOps0 (fun b => m (c, b)) (Proc.devRef .tc main_v5) = _
  after_results

/-- Entry `(n, j)` of the second staged weight is entry `(j, n)` of the second weight argument. -/
theorem V_w2 (n : Fin 195) (j : Fin 78) :
    (V m c main_v5 : S195x78.Idx → EReal) (ix2 n j) = m ((c : Thread nD τ).loc main_arg4) (ix2 j n) := by
  rw [V_main_v5_eq]
  exact transpose_apply [1, 0] _ transposes_S78x195_S195x78_1_0 (ix2 n j) (ix2 j n) fun b => by
    match b with
    | ⟨0, _⟩ => rfl
    | ⟨1, _⟩ => rfl

/-- The first bias, as a one-row matrix. -/
theorem V_main_v6_eq :
    (V m c main_v6 : S1x195.Idx → EReal)
      = shapeCast S1x195 (m ((c : Thread nD τ).loc main_arg3)) shapeCasts_S195_S1x195 := by
  show StableHlo.after hostOps0 (fun b => m (c, b)) (Proc.devRef .tc main_v6) = _
  after_results
  rfl

/-- Entry `(0, n)` of the row is entry `n` of the vector. -/
theorem V_b1 (n : Fin 195) :
    (V m c main_v6 : S1x195.Idx → EReal) (ix2 (0 : Fin 1) n) = m ((c : Thread nD τ).loc main_arg3) (ix1 n) := by
  rw [V_main_v6_eq]
  exact Cert.Lib.RowForms.vecRow_apply _ _ n

/-- The second bias, as a one-row matrix. -/
theorem V_main_v7_eq :
    (V m c main_v7 : S1x78.Idx → EReal)
      = shapeCast S1x78 (m ((c : Thread nD τ).loc main_arg5)) shapeCasts_S78_S1x78 := by
  show StableHlo.after hostOps0 (fun b => m (c, b)) (Proc.devRef .tc main_v7) = _
  after_results
  rfl

/-- Entry `(0, n)` of the row is entry `n` of the vector. -/
theorem V_b2 (n : Fin 78) :
    (V m c main_v7 : S1x78.Idx → EReal) (ix2 (0 : Fin 1) n) = m ((c : Thread nD τ).loc main_arg5) (ix1 n) := by
  rw [V_main_v7_eq]
  exact Cert.Lib.RowForms.vecRow_apply _ _ n

/-- The first slope, as a one-entry matrix. -/
theorem V_main_v8_eq :
    (V m c main_v8 : S1x1.Idx → EReal)
      = shapeCast S1x1 (m ((c : Thread nD τ).loc main_arg6)) shapeCasts_S1_S1x1 := by
  show StableHlo.after hostOps0 (fun b => m (c, b)) (Proc.devRef .tc main_v8) = _
  after_results
  rfl

/-- Its one entry. -/
theorem V_a1 :
    (V m c main_v8 : S1x1.Idx → EReal) (ix2 (0 : Fin 1) (0 : Fin 1)) = m ((c : Thread nD τ).loc main_arg6) (ix1 (0 : Fin 1)) := by
  rw [V_main_v8_eq]
  exact Cert.Lib.RowForms.vecRow_apply _ _ (0 : Fin 1)

/-- The second slope, as a one-entry matrix. -/
theorem V_main_v9_eq :
    (V m c main_v9 : S1x1.Idx → EReal)
      = shapeCast S1x1 (m ((c : Thread nD τ).loc main_arg7)) shapeCasts_S1_S1x1 := by
  show StableHlo.after hostOps0 (fun b => m (c, b)) (Proc.devRef .tc main_v9) = _
  after_results
  rfl

/-- Its one entry. -/
theorem V_a2 :
    (V m c main_v9 : S1x1.Idx → EReal) (ix2 (0 : Fin 1) (0 : Fin 1)) = m ((c : Thread nD τ).loc main_arg7) (ix1 (0 : Fin 1)) := by
  rw [V_main_v9_eq]
  exact Cert.Lib.RowForms.vecRow_apply _ _ (0 : Fin 1)

/-- The first scale, as a one-row matrix. -/
theorem V_main_v10_eq :
    (V m c main_v10 : S1x195.Idx → EReal)
      = shapeCast S1x195 (m ((c : Thread nD τ).loc main_arg8)) shapeCasts_S195_S1x195 := by
  show StableHlo.after hostOps0 (fun b => m (c, b)) (Proc.devRef .tc main_v10) = _
  after_results
  rfl

/-- Entry `(0, n)` of the row is entry `n` of the vector. -/
theorem V_al1 (n : Fin 195) :
    (V m c main_v10 : S1x195.Idx → EReal) (ix2 (0 : Fin 1) n) = m ((c : Thread nD τ).loc main_arg8) (ix1 n) := by
  rw [V_main_v10_eq]
  exact Cert.Lib.RowForms.vecRow_apply _ _ n

/-- The first shift, as a one-row matrix. -/
theorem V_main_v11_eq :
    (V m c main_v11 : S1x195.Idx → EReal)
      = shapeCast S1x195 (m ((c : Thread nD τ).loc main_arg9)) shapeCasts_S195_S1x195 := by
  show StableHlo.after hostOps0 (fun b => m (c, b)) (Proc.devRef .tc main_v11) = _
  after_results
  rfl

/-- Entry `(0, n)` of the row is entry `n` of the vector. -/
theorem V_be1 (n : Fin 195) :
    (V m c main_v11 : S1x195.Idx → EReal) (ix2 (0 : Fin 1) n) = m ((c : Thread nD τ).loc main_arg9) (ix1 n) := by
  rw [V_main_v11_eq]
  exact Cert.Lib.RowForms.vecRow_apply _ _ n

/-- The second scale, as a one-row matrix. -/
theorem V_main_v12_eq :
    (V m c main_v12 : S1x78.Idx → EReal)
      = shapeCast S1x78 (m ((c : Thread nD τ).loc main_arg10)) shapeCasts_S78_S1x78 := by
  show StableHlo.after hostOps0 (fun b => m (c, b)) (Proc.devRef .tc main_v12) = _
  after_results
  rfl

/-- Entry `(0, n)` of the row is entry `n` of the vector. -/
theorem V_al2 (n : Fin 78) :
    (V m c main_v12 : S1x78.Idx → EReal) (ix2 (0 : Fin 1) n) = m ((c : Thread nD τ).loc main_arg10) (ix1 n) := by
  rw [V_main_v12_eq]
  exact Cert.Lib.RowForms.vecRow_apply _ _ n

/-- The second shift, as a one-row matrix. -/
theorem V_main_v13_eq :
    (V m c main_v13 : S1x78.Idx → EReal)
      = shapeCast S1x78 (m ((c : Thread nD τ).loc main_arg11)) shapeCasts_S78_S1x78 := by
  show StableHlo.after hostOps0 (fun b => m (c, b)) (Proc.devRef .tc main_v13) = _
  after_results
  rfl

/-- Entry `(0, n)` of the row is entry `n` of the vector. -/
theorem V_be2 (n : Fin 78) :
    (V m c main_v13 : S1x78.Idx → EReal) (ix2 (0 : Fin 1) n) = m ((c : Thread nD τ).loc main_arg11) (ix1 n) := by
  rw [V_main_v13_eq]
  exact Cert.Lib.RowForms.vecRow_apply _ _ n

/-! ## The host tail -/

/-- After the run the first result is the pipeline's first output array with its rows split back into tokens. -/
theorem tail_first :
    Pipeline.afterTail₀ cfgs (dats m) 0 (V0 m) [hostOps1] c main_v15
      = shapeCast S256x2048x39 ((dats m 0 c).arrAt 12 cfg0.N) shapeCasts_S524288x39_S256x2048x39 := by
  unfold Pipeline.afterTail₀
  show StableHlo.after hostOps1 _ (Proc.devRef .tc main_v15) = _
  after_results
  exact congrArg (fun x => shapeCast S256x2048x39 x shapeCasts_S524288x39_S256x2048x39)
    (Pipeline.withArrays_arr spec0 launch0.win.arr_inj c _ _ 12)

/-- The second result is the pipeline's second output array split the same way. -/
theorem tail_second :
    Pipeline.afterTail₀ cfgs (dats m) 0 (V0 m) [hostOps1] c main_v16
      = shapeCast S256x2048x39 ((dats m 0 c).arrAt 13 cfg0.N) shapeCasts_S524288x39_S256x2048x39 := by
  unfold Pipeline.afterTail₀
  show StableHlo.after hostOps1 _ (Proc.devRef .tc main_v16) = _
  after_results
  exact congrArg (fun x => shapeCast S256x2048x39 x shapeCasts_S524288x39_S256x2048x39)
    (Pipeline.withArrays_arr spec0 launch0.win.arr_inj c _ _ 13)

/-- The run with its results named: the two result buffers are the pipeline's two output arrays reshaped, and the
    twelve arguments end as launched. -/
theorem run_named (ρ : Dev nD → PrngReg) :
    θ_run defs (onTc (τ := τ) (main (F := Ideal))) ⟨m, fun _ => 0, ρ⟩ (fun r => ∀ c : Dev nD,
      r.2.mem ((c : Thread nD τ).loc main_v15)
          = shapeCast S256x2048x39 ((dats m 0 c).arrAt 12 cfg0.N) shapeCasts_S524288x39_S256x2048x39
      ∧ r.2.mem ((c : Thread nD τ).loc main_v16)
          = shapeCast S256x2048x39 ((dats m 0 c).arrAt 13 cfg0.N) shapeCasts_S524288x39_S256x2048x39
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c =>
    ⟨((h c).2 main_v15 (Pipeline.mem_restRefs_of main_v15 (by decide) (by decide))).trans (tail_first m c),
      ((h c).2 main_v16 (Pipeline.mem_restRefs_of main_v16 (by decide) (by decide))).trans (tail_second m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelHost

end
-- ==== Proof.KernelArray.lean ====
/-
  From the blocks to the whole result arrays.

  The grid has 128 points. At point `t` the two moving input windows hold rows `t · 4096 … t · 4096 + 4095` of the two
  `[524288, 39]` feature arrays, the ten other input windows hold their whole arrays at every point, and the two output
  windows write back rows `t · 4096 …` of the two `[524288, 39]` result arrays.

  Row `p` of what point `t` writes back is the row network (in the moments spelling) of the ten weight blocks applied to
  the joined rows `p` of the two moving blocks. Read off the arrays, the weight blocks are the weight arguments
  (transposed, reshaped) and row `p` of a moving block is row `r = t · 4096 + p` of its array, which is token
  `(r / 2048, r % 2048)` of the argument. So each point writes back block `t` of ONE function of the argument arrays
  (`G12`, `G13`), every row `r` lies in point `r / 4096`'s block, and the result arrays end holding `G12`, `G13`.
-/
import proofs.«140718_j55018531062716_2_alg».proof.Proof.Gen.KernelIdeal.Frame
import proofs.«140718_j55018531062716_2_alg».proof.Proof.RowNet
import proofs.«140718_j55018531062716_2_alg».proof.Proof.KernelRow
import proofs.«140718_j55018531062716_2_alg».proof.Proof.KernelHost
import Idealize.ShloMosaic.Lib.Pipeline.Value
import Idealize.ShloMosaic.Lib.Tactic

noncomputable section

namespace Cert.KernelArray

open Idealize.ShloMosaic Idealize.ShloMosaic.TcCoe Idealize.SL.Sem
open Idealize.ShloMosaic.Pipeline (Dat)
open Cert.KernelIdeal Cert.KernelIdeal.Gen Cert.RowNet Idealize.ShloMosaic.ValueIdx

variable (m : (ℓ : Loc nD τ sig) → Buf (Elt Ideal) ℓ) (ρ : Dev nD → PrngReg)

/-! ## The windows' blocks, read off their arrays -/

/-- The printed index maps over the grid: the four moving windows sit at block `(t, 0)` at point `t`. -/
theorem idx_moving : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Window 0's block at point `t`, row `p`, is row `t · 4096 + p` of its array. -/
theorem iblk0_apply (c : Dev nD) (t : Fin cfg0.N) (p : Fin 4096) (k : Fin 39) (r : Fin 524288)
    (hr : r.val = t.val * 4096 + p.val) :
    (iblk m c 0 t : Vec Ideal S4096x39 .f32) (ix2 p k) = V m c main_v0 (ix2 r k) := by
  obtain ⟨⟨e0, e1⟩, -⟩ := idx_moving t
  unfold iblk
  rw [View.read_apply]
  show V m c main_v0 _ = V m c main_v0 _
  congr 1
  funext a
  apply Fin.ext
  match a with
  | ⟨0, _⟩ => show win0_0.index t 0 * 4096 + 1 * p.val = r.val; rw [e0, hr]; omega
  | ⟨1, _⟩ => show win0_0.index t 1 * 39 + 1 * k.val = k.val; rw [e1]; omega

/-- The same for window 1. -/
theorem iblk1_apply (c : Dev nD) (t : Fin cfg0.N) (p : Fin 4096) (k : Fin 39) (r : Fin 524288)
    (hr : r.val = t.val * 4096 + p.val) :
    (iblk m c 1 t : Vec Ideal S4096x39 .f32) (ix2 p k) = V m c main_v1 (ix2 r k) := by
  obtain ⟨-, ⟨e0, e1⟩, -⟩ := idx_moving t
  unfold iblk
  rw [View.read_apply]
  show V m c main_v1 _ = V m c main_v1 _
  congr 1
  funext a
  apply Fin.ext
  match a with
  | ⟨0, _⟩ => show win0_1.index t 0 * 4096 + 1 * p.val = r.val; rw [e0, hr]; omega
  | ⟨1, _⟩ => show win0_1.index t 1 * 39 + 1 * k.val = k.val; rw [e1]; omega

/-- Window 2 does not move: its index map is `(0, 0)` at every point. -/
theorem idx_fixed2 : ∀ t : Fin cfg0.N, win0_2.index t (0 : Fin 2) = 0 ∧ win0_2.index t (1 : Fin 2) = 0 :=
  (by decide +kernel : ∀ t : Fin grid0.N, _)

/-- So its block at any point is its whole array. -/
theorem iblk2_apply (c : Dev nD) (t : Fin cfg0.N) (a : Fin 78) (b : Fin 195) :
    (iblk m c 2 t : Vec Ideal S78x195 .bf16) (ix2 a b) = V m c main_v3 (ix2 a b) := by
  obtain ⟨e0, e1⟩ := idx_fixed2 t
  unfold iblk
  rw [View.read_apply]
  show V m c main_v3 _ = V m c main_v3 _
  congr 1
  funext d
  apply Fin.ext
  match d with
  | ⟨0, _⟩ => show win0_2.index t 0 * 78 + 1 * a.val = a.val; rw [e0]; omega
  | ⟨1, _⟩ => show win0_2.index t 1 * 195 + 1 * b.val = b.val; rw [e1]; omega

/-- Window 3 does not move: its index map is `(0, 0)` at every point. -/
theorem idx_fixed3 : ∀ t : Fin cfg0.N, win0_3.index t (0 : Fin 2) = 0 ∧ win0_3.index t (1 : Fin 2) = 0 :=
  (by decide +kernel : ∀ t : Fin grid0.N, _)

/-- So its block at any point is its whole array. -/
theorem iblk3_apply (c : Dev nD) (t : Fin cfg0.N) (a : Fin 1) (b : Fin 195) :
    (iblk m c 3 t : Vec Ideal S1x195 .f32) (ix2 a b) = V m c main_v6 (ix2 a b) := by
  obtain ⟨e0, e1⟩ := idx_fixed3 t
  unfold iblk
  rw [View.read_apply]
  show V m c main_v6 _ = V m c main_v6 _
  congr 1
  funext d
  apply Fin.ext
  match d with
  | ⟨0, _⟩ => show win0_3.index t 0 * 1 + 1 * a.val = a.val; rw [e0]; omega
  | ⟨1, _⟩ => show win0_3.index t 1 * 195 + 1 * b.val = b.val; rw [e1]; omega

/-- Window 4 does not move: its index map is `(0, 0)` at every point. -/
theorem idx_fixed4 : ∀ t : Fin cfg0.N, win0_4.index t (0 : Fin 2) = 0 ∧ win0_4.index t (1 : Fin 2) = 0 :=
  (by decide +kernel : ∀ t : Fin grid0.N, _)

/-- So its block at any point is its whole array. -/
theorem iblk4_apply (c : Dev nD) (t : Fin cfg0.N) (a : Fin 195) (b : Fin 78) :
    (iblk m c 4 t : Vec Ideal S195x78 .bf16) (ix2 a b) = V m c main_v5 (ix2 a b) := by
  obtain ⟨e0, e1⟩ := idx_fixed4 t
  unfold iblk
  rw [View.read_apply]
  show V m c main_v5 _ = V m c main_v5 _
  congr 1
  funext d
  apply Fin.ext
  match d with
  | ⟨0, _⟩ => show win0_4.index t 0 * 195 + 1 * a.val = a.val; rw [e0]; omega
  | ⟨1, _⟩ => show win0_4.index t 1 * 78 + 1 * b.val = b.val; rw [e1]; omega

/-- Window 5 does not move: its index map is `(0, 0)` at every point. -/
theorem idx_fixed5 : ∀ t : Fin cfg0.N, win0_5.index t (0 : Fin 2) = 0 ∧ win0_5.index t (1 : Fin 2) = 0 :=
  (by decide +kernel : ∀ t : Fin grid0.N, _)

/-- So its block at any point is its whole array. -/
theorem iblk5_apply (c : Dev nD) (t : Fin cfg0.N) (a : Fin 1) (b : Fin 78) :
    (iblk m c 5 t : Vec Ideal S1x78 .f32) (ix2 a b) = V m c main_v7 (ix2 a b) := by
  obtain ⟨e0, e1⟩ := idx_fixed5 t
  unfold iblk
  rw [View.read_apply]
  show V m c main_v7 _ = V m c main_v7 _
  congr 1
  funext d
  apply Fin.ext
  match d with
  | ⟨0, _⟩ => show win0_5.index t 0 * 1 + 1 * a.val = a.val; rw [e0]; omega
  | ⟨1, _⟩ => show win0_5.index t 1 * 78 + 1 * b.val = b.val; rw [e1]; omega

/-- Window 6 does not move: its index map is `(0, 0)` at every point. -/
theorem idx_fixed6 : ∀ t : Fin cfg0.N, win0_6.index t (0 : Fin 2) = 0 ∧ win0_6.index t (1 : Fin 2) = 0 :=
  (by decide +kernel : ∀ t : Fin grid0.N, _)

/-- So its block at any point is its whole array. -/
theorem iblk6_apply (c : Dev nD) (t : Fin cfg0.N) (a : Fin 1) (b : Fin 1) :
    (iblk m c 6 t : Vec Ideal S1x1 .f32) (ix2 a b) = V m c main_v8 (ix2 a b) := by
  obtain ⟨e0, e1⟩ := idx_fixed6 t
  unfold iblk
  rw [View.read_apply]
  show V m c main_v8 _ = V m c main_v8 _
  congr 1
  funext d
  apply Fin.ext
  match d with
  | ⟨0, _⟩ => show win0_6.index t 0 * 1 + 1 * a.val = a.val; rw [e0]; omega
  | ⟨1, _⟩ => show win0_6.index t 1 * 1 + 1 * b.val = b.val; rw [e1]; omega

/-- Window 7 does not move: its index map is `(0, 0)` at every point. -/
theorem idx_fixed7 : ∀ t : Fin cfg0.N, win0_7.index t (0 : Fin 2) = 0 ∧ win0_7.index t (1 : Fin 2) = 0 :=
  (by decide +kernel : ∀ t : Fin grid0.N, _)

/-- So its block at any point is its whole array. -/
theorem iblk7_apply (c : Dev nD) (t : Fin cfg0.N) (a : Fin 1) (b : Fin 1) :
    (iblk m c 7 t : Vec Ideal S1x1 .f32) (ix2 a b) = V m c main_v9 (ix2 a b) := by
  obtain ⟨e0, e1⟩ := idx_fixed7 t
  unfold iblk
  rw [View.read_apply]
  show V m c main_v9 _ = V m c main_v9 _
  congr 1
  funext d
  apply Fin.ext
  match d with
  | ⟨0, _⟩ => show win0_7.index t 0 * 1 + 1 * a.val = a.val; rw [e0]; omega
  | ⟨1, _⟩ => show win0_7.index t 1 * 1 + 1 * b.val = b.val; rw [e1]; omega

/-- Window 8 does not move: its index map is `(0, 0)` at every point. -/
theorem idx_fixed8 : ∀ t : Fin cfg0.N, win0_8.index t (0 : Fin 2) = 0 ∧ win0_8.index t (1 : Fin 2) = 0 :=
  (by decide +kernel : ∀ t : Fin grid0.N, _)

/-- So its block at any point is its whole array. -/
theorem iblk8_apply (c : Dev nD) (t : Fin cfg0.N) (a : Fin 1) (b : Fin 195) :
    (iblk m c 8 t : Vec Ideal S1x195 .f32) (ix2 a b) = V m c main_v10 (ix2 a b) := by
  obtain ⟨e0, e1⟩ := idx_fixed8 t
  unfold iblk
  rw [View.read_apply]
  show V m c main_v10 _ = V m c main_v10 _
  congr 1
  funext d
  apply Fin.ext
  match d with
  | ⟨0, _⟩ => show win0_8.index t 0 * 1 + 1 * a.val = a.val; rw [e0]; omega
  | ⟨1, _⟩ => show win0_8.index t 1 * 195 + 1 * b.val = b.val; rw [e1]; omega

/-- Window 9 does not move: its index map is `(0, 0)` at every point. -/
theorem idx_fixed9 : ∀ t : Fin cfg0.N, win0_9.index t (0 : Fin 2) = 0 ∧ win0_9.index t (1 : Fin 2) = 0 :=
  (by decide +kernel : ∀ t : Fin grid0.N, _)

/-- So its block at any point is its whole array. -/
theorem iblk9_apply (c : Dev nD) (t : Fin cfg0.N) (a : Fin 1) (b : Fin 195) :
    (iblk m c 9 t : Vec Ideal S1x195 .f32) (ix2 a b) = V m c main_v11 (ix2 a b) := by
  obtain ⟨e0, e1⟩ := idx_fixed9 t
  unfold iblk
  rw [View.read_apply]
  show V m c main_v11 _ = V m c main_v11 _
  congr 1
  funext d
  apply Fin.ext
  match d with
  | ⟨0, _⟩ => show win0_9.index t 0 * 1 + 1 * a.val = a.val; rw [e0]; omega
  | ⟨1, _⟩ => show win0_9.index t 1 * 195 + 1 * b.val = b.val; rw [e1]; omega

/-- Window 10 does not move: its index map is `(0, 0)` at every point. -/
theorem idx_fixed10 : ∀ t : Fin cfg0.N, win0_10.index t (0 : Fin 2) = 0 ∧ win0_10.index t (1 : Fin 2) = 0 :=
  (by decide +kernel : ∀ t : Fin grid0.N, _)

/-- So its block at any point is its whole array. -/
theorem iblk10_apply (c : Dev nD) (t : Fin cfg0.N) (a : Fin 1) (b : Fin 78) :
    (iblk m c 10 t : Vec Ideal S1x78 .f32) (ix2 a b) = V m c main_v12 (ix2 a b) := by
  obtain ⟨e0, e1⟩ := idx_fixed10 t
  unfold iblk
  rw [View.read_apply]
  show V m c main_v12 _ = V m c main_v12 _
  congr 1
  funext d
  apply Fin.ext
  match d with
  | ⟨0, _⟩ => show win0_10.index t 0 * 1 + 1 * a.val = a.val; rw [e0]; omega
  | ⟨1, _⟩ => show win0_10.index t 1 * 78 + 1 * b.val = b.val; rw [e1]; omega

/-- Window 11 does not move: its index map is `(0, 0)` at every point. -/
theorem idx_fixed11 : ∀ t : Fin cfg0.N, win0_11.index t (0 : Fin 2) = 0 ∧ win0_11.index t (1 : Fin 2) = 0 :=
  (by decide +kernel : ∀ t : Fin grid0.N, _)

/-- So its block at any point is its whole array. -/
theorem iblk11_apply (c : Dev nD) (t : Fin cfg0.N) (a : Fin 1) (b : Fin 78) :
    (iblk m c 11 t : Vec Ideal S1x78 .f32) (ix2 a b) = V m c main_v13 (ix2 a b) := by
  obtain ⟨e0, e1⟩ := idx_fixed11 t
  unfold iblk
  rw [View.read_apply]
  show V m c main_v13 _ = V m c main_v13 _
  congr 1
  funext d
  apply Fin.ext
  match d with
  | ⟨0, _⟩ => show win0_11.index t 0 * 1 + 1 * a.val = a.val; rw [e0]; omega
  | ⟨1, _⟩ => show win0_11.index t 1 * 78 + 1 * b.val = b.val; rw [e1]; omega

/-! ## The result arrays as one function of the argument arrays -/

/-- Row `r` of the `[524288, 39]` arrays is token `(r / 2048, r % 2048)`. -/
abbrev rowB (r : Fin 524288) : Fin 256 := ⟨r.val / 2048, by have := r.isLt; omega⟩
abbrev rowT (r : Fin 524288) : Fin 2048 := ⟨r.val % 2048, Nat.mod_lt _ (by decide)⟩

/-- The whole first result array: row `r` is token `(r / 2048, r % 2048)`, column `q` the network's column `q`. -/
def G12 (c : Dev nD) : S524288x39.Idx → EReal := fun i =>
  netMoments (fun n k => (m ((c : Thread nD τ).loc main_arg2)) (ix2 n k)) (fun n => (m ((c : Thread nD τ).loc main_arg3)) (ix1 n))
    ((m ((c : Thread nD τ).loc main_arg6)) (ix1 (0 : Fin 1))) (fun n => (m ((c : Thread nD τ).loc main_arg8)) (ix1 n))
    (fun n => (m ((c : Thread nD τ).loc main_arg9)) (ix1 n)) (fun j n => (m ((c : Thread nD τ).loc main_arg4)) (ix2 j n))
    (fun j => (m ((c : Thread nD τ).loc main_arg5)) (ix1 j)) ((m ((c : Thread nD τ).loc main_arg7)) (ix1 (0 : Fin 1)))
    (fun j => (m ((c : Thread nD τ).loc main_arg10)) (ix1 j)) (fun j => (m ((c : Thread nD τ).loc main_arg11)) (ix1 j))
    (tokenRow (m ((c : Thread nD τ).loc main_arg0)) (m ((c : Thread nD τ).loc main_arg1)) (rowB (i 0)) (rowT (i 0)))
    (colX (i 1))

/-- The whole second result array: the same with column `q + 39`. -/
def G13 (c : Dev nD) : S524288x39.Idx → EReal := fun i =>
  netMoments (fun n k => (m ((c : Thread nD τ).loc main_arg2)) (ix2 n k)) (fun n => (m ((c : Thread nD τ).loc main_arg3)) (ix1 n))
    ((m ((c : Thread nD τ).loc main_arg6)) (ix1 (0 : Fin 1))) (fun n => (m ((c : Thread nD τ).loc main_arg8)) (ix1 n))
    (fun n => (m ((c : Thread nD τ).loc main_arg9)) (ix1 n)) (fun j n => (m ((c : Thread nD τ).loc main_arg4)) (ix2 j n))
    (fun j => (m ((c : Thread nD τ).loc main_arg5)) (ix1 j)) ((m ((c : Thread nD τ).loc main_arg7)) (ix1 (0 : Fin 1)))
    (fun j => (m ((c : Thread nD τ).loc main_arg10)) (ix1 j)) (fun j => (m ((c : Thread nD τ).loc main_arg11)) (ix1 j))
    (tokenRow (m ((c : Thread nD τ).loc main_arg0)) (m ((c : Thread nD τ).loc main_arg1)) (rowB (i 0)) (rowT (i 0)))
    (colY (i 1))

/-- The block's network is the row network of any weights its blocks agree with entry by entry. -/
theorem blockNet_congr (x2 : Vec Ideal S78x195 .bf16) (x3 : Vec Ideal S1x195 .f32) (x4 : Vec Ideal S195x78 .bf16)
    (x5 : Vec Ideal S1x78 .f32) (x6 x7 : Vec Ideal S1x1 .f32) (x8 x9 : Vec Ideal S1x195 .f32)
    (x10 x11 : Vec Ideal S1x78 .f32)
    (W1 : Fin 195 → Fin 78 → EReal) (b1 : Fin 195 → EReal) (a1 : EReal) (α1 β1 : Fin 195 → EReal)
    (W2 : Fin 78 → Fin 195 → EReal) (b2 : Fin 78 → EReal) (a2 : EReal) (α2 β2 : Fin 78 → EReal)
    (h2 : ∀ n k, x2 (ix2 k n) = W1 n k) (h3 : ∀ n, x3 (ix2 (0 : Fin 1) n) = b1 n)
    (h6 : x6 (ix2 (0 : Fin 1) (0 : Fin 1)) = a1) (h8 : ∀ n, x8 (ix2 (0 : Fin 1) n) = α1 n)
    (h9 : ∀ n, x9 (ix2 (0 : Fin 1) n) = β1 n) (h4 : ∀ j n, x4 (ix2 n j) = W2 j n)
    (h5 : ∀ j, x5 (ix2 (0 : Fin 1) j) = b2 j) (h7 : x7 (ix2 (0 : Fin 1) (0 : Fin 1)) = a2)
    (h10 : ∀ j, x10 (ix2 (0 : Fin 1) j) = α2 j) (h11 : ∀ j, x11 (ix2 (0 : Fin 1) j) = β2 j)
    (v v' : Fin 78 → EReal) (hv : v = v') :
    Cert.KernelRow.blockNet x2 x3 x4 x5 x6 x7 x8 x9 x10 x11 v = netMoments W1 b1 a1 α1 β1 W2 b2 a2 α2 β2 v' := by
  subst hv
  unfold Cert.KernelRow.blockNet
  rw [show (fun n k => x2 (ix2 k n)) = W1 from funext fun n => funext fun k => h2 n k,
    show (fun n => x3 (ix2 (0 : Fin 1) n)) = b1 from funext h3, h6,
    show (fun n => x8 (ix2 (0 : Fin 1) n)) = α1 from funext h8,
    show (fun n => x9 (ix2 (0 : Fin 1) n)) = β1 from funext h9,
    show (fun j n => x4 (ix2 n j)) = W2 from funext fun j => funext fun n => h4 j n,
    show (fun j => x5 (ix2 (0 : Fin 1) j)) = b2 from funext h5, h7,
    show (fun j => x10 (ix2 (0 : Fin 1) j)) = α2 from funext h10,
    show (fun j => x11 (ix2 (0 : Fin 1) j)) = β2 from funext h11]

/-- At point `t`, row `p` of the block: the block's network on the joined rows of the two moving blocks is the row
    network of the argument arrays on token `(r / 2048, r % 2048)`'s row, `r = t · 4096 + p`. -/
theorem block_eq (c : Dev nD) (t : Fin cfg0.N) (p : Fin 4096) (r : Fin 524288) (hr : r.val = t.val * 4096 + p.val) :
    Cert.KernelRow.blockNet (iblk m c 2 t) (iblk m c 3 t) (iblk m c 4 t) (iblk m c 5 t) (iblk m c 6 t) (iblk m c 7 t)
        (iblk m c 8 t) (iblk m c 9 t) (iblk m c 10 t) (iblk m c 11 t)
        (joinRow (fun k => (iblk m c 0 t : Vec Ideal S4096x39 .f32) (ix2 p k))
          (fun k => (iblk m c 1 t : Vec Ideal S4096x39 .f32) (ix2 p k)))
      = netMoments (fun n k => (m ((c : Thread nD τ).loc main_arg2)) (ix2 n k)) (fun n => (m ((c : Thread nD τ).loc main_arg3)) (ix1 n)) ((m ((c : Thread nD τ).loc main_arg6)) (ix1 (0 : Fin 1)))
          (fun n => (m ((c : Thread nD τ).loc main_arg8)) (ix1 n)) (fun n => (m ((c : Thread nD τ).loc main_arg9)) (ix1 n)) (fun n k => (m ((c : Thread nD τ).loc main_arg4)) (ix2 n k))
          (fun n => (m ((c : Thread nD τ).loc main_arg5)) (ix1 n)) ((m ((c : Thread nD τ).loc main_arg7)) (ix1 (0 : Fin 1))) (fun n => (m ((c : Thread nD τ).loc main_arg10)) (ix1 n))
          (fun n => (m ((c : Thread nD τ).loc main_arg11)) (ix1 n)) (tokenRow (m ((c : Thread nD τ).loc main_arg0)) (m ((c : Thread nD τ).loc main_arg1)) (rowB r) (rowT r)) := by
  have hrow : r.val = (rowB r).val * 2048 + (rowT r).val := by
    show r.val = r.val / 2048 * 2048 + r.val % 2048
    omega
  refine blockNet_congr (iblk m c 2 t) (iblk m c 3 t) (iblk m c 4 t) (iblk m c 5 t) (iblk m c 6 t) (iblk m c 7 t)
    (iblk m c 8 t) (iblk m c 9 t) (iblk m c 10 t) (iblk m c 11 t) _ _ _ _ _ _ _ _ _ _
    (fun n k => (iblk2_apply m c t k n).trans (Cert.KernelHost.V_w1 m c k n))
    (fun n => (iblk3_apply m c t 0 n).trans (Cert.KernelHost.V_b1 m c n))
    ((iblk6_apply m c t 0 0).trans (Cert.KernelHost.V_a1 m c))
    (fun n => (iblk8_apply m c t 0 n).trans (Cert.KernelHost.V_al1 m c n))
    (fun n => (iblk9_apply m c t 0 n).trans (Cert.KernelHost.V_be1 m c n))
    (fun j n => (iblk4_apply m c t n j).trans (Cert.KernelHost.V_w2 m c n j))
    (fun j => (iblk5_apply m c t 0 j).trans (Cert.KernelHost.V_b2 m c j))
    ((iblk7_apply m c t 0 0).trans (Cert.KernelHost.V_a2 m c))
    (fun j => (iblk10_apply m c t 0 j).trans (Cert.KernelHost.V_al2 m c j))
    (fun j => (iblk11_apply m c t 0 j).trans (Cert.KernelHost.V_be2 m c j))
    _ _ ?_
  unfold tokenRow
  congr 1 <;> funext k
  · exact (iblk0_apply m c t p k r hr).trans (Cert.KernelHost.V_x m c (rowB r) (rowT r) k r hrow)
  · exact (iblk1_apply m c t p k r hr).trans (Cert.KernelHost.V_y m c (rowB r) (rowT r) k r hrow)

/-! ## From the blocks to the whole arrays -/

/-- What point `t` writes back through window 12 is block `t` of `G12`. -/
theorem flushed12_eq (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  funext y
  obtain ⟨p, q, rfl⟩ : ∃ (p : Fin 4096) (q : Fin 39), y = ix2 p q := ⟨y 0, y 1, eq_ix2 y⟩
  have ht : t.val < 128 := by have h := t.isLt; have hN : cfg0.N = 128 := N_0; omega
  have hp : p.val < 4096 := p.isLt
  have hemb : ((cfg0.win 12).blk t).view.emb (ix2 p q)
      = ix2 (⟨t.val * 4096 + p.val, by omega⟩ : Fin 524288) q := by
    obtain ⟨-, -, e12, e13⟩ := idx_moving t
    funext a
    apply Fin.ext
    match a with
    | ⟨0, _⟩ => show win0_12.index t 0 * 4096 + 1 * p.val = t.val * 4096 + p.val; rw [e12.1]; omega
    | ⟨1, _⟩ => show win0_12.index t 1 * 39 + 1 * q.val = q.val; rw [e12.2]; omega
  rw [View.read_apply, hemb]
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = _
  refine (Cert.KernelRow.out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  exact congrFun (block_eq m c t p ⟨t.val * 4096 + p.val, by omega⟩ rfl) (colX q)

/-- An index of the array is in point `t`'s block of window 12 iff each coordinate is in the block's range. -/
theorem mem_blk12 (t : Fin cfg0.N) (i : S524288x39.Idx) :
    i ∈ ((cfg0.win 12).blk t).view.set ↔ ∀ a : Fin 2, win0_12.index t a * S4096x39.size a ≤ (i a).val
      ∧ (i a).val < win0_12.index t a * S4096x39.size a + S4096x39.size a := by
  show i ∈ ((View.whole main_v14_0).slice (win0_12.rect t)).set ↔ _
  rw [View.set_slice_whole, Rect.mem_set_unit]
  exact Iff.rfl

/-- Every index of the array is in some point's block: row `r` in point `r / 4096`'s. -/
theorem cover12 (i : S524288x39.Idx) :
    ∃ t : Fin cfg0.N, (cfg0.win 12).flush t = true ∧ i ∈ ((cfg0.win 12).blk t).view.set := by
  have hi0 : (i 0).val < 524288 := (i 0).isLt
  have hi1 : (i 1).val < 39 := (i 1).isLt
  have hN : cfg0.N = 128 := N_0
  refine ⟨⟨(i 0).val / 4096, by rw [hN]; omega⟩, flush0_12 _, ?_⟩
  rw [mem_blk12]
  obtain ⟨-, -, e12, e13⟩ := idx_moving ⟨(i 0).val / 4096, by rw [hN]; omega⟩
  intro a
  match a with
  | ⟨0, _⟩ =>
    show win0_12.index _ 0 * 4096 ≤ (i 0).val ∧ (i 0).val < win0_12.index _ 0 * 4096 + 4096
    rw [e12.1]
    show (i 0).val / 4096 * 4096 ≤ (i 0).val ∧ (i 0).val < (i 0).val / 4096 * 4096 + 4096
    omega
  | ⟨1, _⟩ =>
    show win0_12.index _ 1 * 39 ≤ (i 1).val ∧ (i 1).val < win0_12.index _ 1 * 39 + 39
    rw [e12.2]
    omega

/-- The array of window 12 after the run is `G12`. -/
theorem final12 (c : Dev nD) : (dats m 0 c).arrAt 12 cfg0.N = G12 m c :=
  (dats m 0 c).arrAt_eq_of_cover 12 (G12 m c) (fun t _ => flushed12_eq m c t) cover12

/-- What point `t` writes back through window 13 is block `t` of `G13`. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  funext y
  obtain ⟨p, q, rfl⟩ : ∃ (p : Fin 4096) (q : Fin 39), y = ix2 p q := ⟨y 0, y 1, eq_ix2 y⟩
  have ht : t.val < 128 := by have h := t.isLt; have hN : cfg0.N = 128 := N_0; omega
  have hp : p.val < 4096 := p.isLt
  have hemb : ((cfg0.win 13).blk t).view.emb (ix2 p q)
      = ix2 (⟨t.val * 4096 + p.val, by omega⟩ : Fin 524288) q := by
    obtain ⟨-, -, e12, e13⟩ := idx_moving t
    funext a
    apply Fin.ext
    match a with
    | ⟨0, _⟩ => show win0_13.index t 0 * 4096 + 1 * p.val = t.val * 4096 + p.val; rw [e13.1]; omega
    | ⟨1, _⟩ => show win0_13.index t 1 * 39 + 1 * q.val = q.val; rw [e13.2]; omega
  rw [View.read_apply, hemb]
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = _
  refine (Cert.KernelRow.out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  exact congrFun (block_eq m c t p ⟨t.val * 4096 + p.val, by omega⟩ rfl) (colY q)

/-- An index of the array is in point `t`'s block of window 13 iff each coordinate is in the block's range. -/
theorem mem_blk13 (t : Fin cfg0.N) (i : S524288x39.Idx) :
    i ∈ ((cfg0.win 13).blk t).view.set ↔ ∀ a : Fin 2, win0_13.index t a * S4096x39.size a ≤ (i a).val
      ∧ (i a).val < win0_13.index t a * S4096x39.size a + S4096x39.size a := by
  show i ∈ ((View.whole main_v14_1).slice (win0_13.rect t)).set ↔ _
  rw [View.set_slice_whole, Rect.mem_set_unit]
  exact Iff.rfl

/-- Every index of the array is in some point's block: row `r` in point `r / 4096`'s. -/
theorem cover13 (i : S524288x39.Idx) :
    ∃ t : Fin cfg0.N, (cfg0.win 13).flush t = true ∧ i ∈ ((cfg0.win 13).blk t).view.set := by
  have hi0 : (i 0).val < 524288 := (i 0).isLt
  have hi1 : (i 1).val < 39 := (i 1).isLt
  have hN : cfg0.N = 128 := N_0
  refine ⟨⟨(i 0).val / 4096, by rw [hN]; omega⟩, flush0_13 _, ?_⟩
  rw [mem_blk13]
  obtain ⟨-, -, e12, e13⟩ := idx_moving ⟨(i 0).val / 4096, by rw [hN]; omega⟩
  intro a
  match a with
  | ⟨0, _⟩ =>
    show win0_13.index _ 0 * 4096 ≤ (i 0).val ∧ (i 0).val < win0_13.index _ 0 * 4096 + 4096
    rw [e13.1]
    show (i 0).val / 4096 * 4096 ≤ (i 0).val ∧ (i 0).val < (i 0).val / 4096 * 4096 + 4096
    omega
  | ⟨1, _⟩ =>
    show win0_13.index _ 1 * 39 ≤ (i 1).val ∧ (i 1).val < win0_13.index _ 1 * 39 + 39
    rw [e13.2]
    omega

/-- The array of window 13 after the run is `G13`. -/
theorem final13 (c : Dev nD) : (dats m 0 c).arrAt 13 cfg0.N = G13 m c :=
  (dats m 0 c).arrAt_eq_of_cover 13 (G13 m c) (fun t _ => flushed13_eq m c t) cover13

end Cert.KernelArray

end
-- ==== Proof.KernelResult.lean ====
/-
  The kernel program's two results as the row network.

  The pipeline's two output arrays hold one row per token; the program's last two operations split the rows back
  into tokens. Row b·2048 + t is token (b, t), so the two results are the first and the last 39 columns of the
  network's rows (moments spelling), and every run of the program ends with them in the result buffers.
-/
import proofs.«140718_j55018531062716_2_alg».proof.Proof.KernelArray
import proofs.«140718_j55018531062716_2_alg».proof.Proof.KernelHost
import proofs.«140718_j55018531062716_2_alg».proof.Proof.LibReshape
import proofs.«140718_j55018531062716_2_alg».proof.Proof.RowNet

set_option maxRecDepth 16384

noncomputable section

namespace Cert.KernelResult

open Idealize.ShloMosaic Idealize.ShloMosaic.TcCoe Idealize.ShloMosaic.ValueIdx
open Idealize.SL.Sem
open Cert.KernelIdeal Cert.KernelIdeal.Gen Cert.RowNet Cert.KernelArray

variable (m : (ℓ : Loc nD τ sig) → Buf (Elt Ideal) ℓ) (c : Dev nD)

/-! ## The rows split back into tokens -/

/-- Row `r = b·2048 + t` is token `(r / 2048, r % 2048) = (b, t)`. -/
theorem token_of_row (X Y : SX.Idx → EReal) (b : Fin 256) (t : Fin 2048) (r : Fin 524288)
    (hr : r.val = b.val * 2048 + t.val) (h1 : r.val / 2048 < 256) (h2 : r.val % 2048 < 2048) :
    tokenRow X Y ⟨r.val / 2048, h1⟩ ⟨r.val % 2048, h2⟩ = tokenRow X Y b t := by
  have e1 : (⟨r.val / 2048, h1⟩ : Fin 256) = b :=
    Fin.ext (by show r.val / 2048 = b.val; have := t.isLt; omega)
  have e2 : (⟨r.val % 2048, h2⟩ : Fin 2048) = t :=
    Fin.ext (by show r.val % 2048 = t.val; have := t.isLt; omega)
  rw [e1, e2]

/-- The first whole output array, its rows split into tokens, is the first half of the network's rows. -/
theorem result_first :
    shapeCast S256x2048x39 (G12 m c) shapeCasts_S524288x39_S256x2048x39
      = resMoments colX (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) := by
  funext i
  obtain ⟨b, t, q, rfl⟩ : ∃ b t q, i = ix3 b t q := ⟨_, _, _, eq_ix3 i⟩
  have hlt : b.val * 2048 + t.val < 524288 := by have := b.isLt; have := t.isLt; omega
  rw [Cert.Lib.Reshape.split_apply (G12 m c) shapeCasts_S524288x39_S256x2048x39 b t q ⟨b.val * 2048 + t.val, hlt⟩ rfl]
  exact congrArg (fun v => netMoments (fun n k => (m ((c : Thread nD τ).loc main_arg2)) (ix2 n k)) (fun n => (m ((c : Thread nD τ).loc main_arg3)) (ix1 n))
    ((m ((c : Thread nD τ).loc main_arg6)) (ix1 (0 : Fin 1))) (fun n => (m ((c : Thread nD τ).loc main_arg8)) (ix1 n))
    (fun n => (m ((c : Thread nD τ).loc main_arg9)) (ix1 n)) (fun j n => (m ((c : Thread nD τ).loc main_arg4)) (ix2 j n))
    (fun j => (m ((c : Thread nD τ).loc main_arg5)) (ix1 j)) ((m ((c : Thread nD τ).loc main_arg7)) (ix1 (0 : Fin 1)))
    (fun j => (m ((c : Thread nD τ).loc main_arg10)) (ix1 j)) (fun j => (m ((c : Thread nD τ).loc main_arg11)) (ix1 j)) v (colX q))
    (token_of_row _ _ b t ⟨b.val * 2048 + t.val, hlt⟩ rfl _ _)

/-- The second whole output array split the same way is the second half. -/
theorem result_second :
    shapeCast S256x2048x39 (G13 m c) shapeCasts_S524288x39_S256x2048x39
      = resMoments colY (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) := by
  funext i
  obtain ⟨b, t, q, rfl⟩ : ∃ b t q, i = ix3 b t q := ⟨_, _, _, eq_ix3 i⟩
  have hlt : b.val * 2048 + t.val < 524288 := by have := b.isLt; have := t.isLt; omega
  rw [Cert.Lib.Reshape.split_apply (G13 m c) shapeCasts_S524288x39_S256x2048x39 b t q ⟨b.val * 2048 + t.val, hlt⟩ rfl]
  exact congrArg (fun v => netMoments (fun n k => (m ((c : Thread nD τ).loc main_arg2)) (ix2 n k)) (fun n => (m ((c : Thread nD τ).loc main_arg3)) (ix1 n))
    ((m ((c : Thread nD τ).loc main_arg6)) (ix1 (0 : Fin 1))) (fun n => (m ((c : Thread nD τ).loc main_arg8)) (ix1 n))
    (fun n => (m ((c : Thread nD τ).loc main_arg9)) (ix1 n)) (fun j n => (m ((c : Thread nD τ).loc main_arg4)) (ix2 j n))
    (fun j => (m ((c : Thread nD τ).loc main_arg5)) (ix1 j)) ((m ((c : Thread nD τ).loc main_arg7)) (ix1 (0 : Fin 1)))
    (fun j => (m ((c : Thread nD τ).loc main_arg10)) (ix1 j)) (fun j => (m ((c : Thread nD τ).loc main_arg11)) (ix1 j)) v (colY q))
    (token_of_row _ _ b t ⟨b.val * 2048 + t.val, hlt⟩ rfl _ _)

/-! ## The run with its results as the network -/

/-- Every run of the kernel program ends with the two result buffers holding the two halves of the network's rows
    (moments spelling), and the twelve arguments as launched. -/
theorem kernel_run (ρ : Dev nD → PrngReg) :
    θ_run defs (onTc (τ := τ) (main (F := Ideal))) ⟨m, fun _ => 0, ρ⟩ (fun r => ∀ c : Dev nD,
      r.2.mem ((c : Thread nD τ).loc main_v15)
          = resMoments colX (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11))
      ∧ r.2.mem ((c : Thread nD τ).loc main_v16)
          = resMoments colY (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c =>
    ⟨(h c).1.trans ((congrArg (fun y => shapeCast S256x2048x39 y shapeCasts_S524288x39_S256x2048x39)
        (final12 m c)).trans (result_first m c)),
      (h c).2.1.trans ((congrArg (fun y => shapeCast S256x2048x39 y shapeCasts_S524288x39_S256x2048x39)
        (final13 m c)).trans (result_second m c)),
      (h c).2.2⟩)
    (Cert.KernelHost.run_named m ρ)

end Cert.KernelResult

end
-- ==== Proof.LibRealOps.lean ====
/-
  The reals are closed under the ideal operations a normalisation uses.

  At the ideal instance a float is an extended real, and most laws that join two spellings of one formula (a variance,
  a product moved across a sum) hold only where every value is a REAL. These lemmas carry "is a real" through the
  operations, one value at a time, each naming the real the result is:
  * `rsqrt_coe_of_pos`: the reciprocal square root of a real `r > 0` is the real `(√r)⁻¹`, which is positive
    (`inv_sqrt_pos`); `rsqrt_add_eps`: so is that of `v + ε` for `v ≥ 0`, `ε > 0` (a variance plus its epsilon);
  * `coe_max`: the maximum of two reals; `dot_coe`: the inner product of two real rows; `sum_ones`: a sum of ones
    over a finite set is the number of its elements (a node's degree, counted by scattering ones);
  * `cmp_ogt_eq_one_iff`: the comparison `x > y` is the flag 1 exactly when `y < x`;
  * `gcn_coeff_coe`: the symmetric-normalisation coefficient `where(d > 0, rsqrt(max(d, 1)), 0)` of a real degree
    `d` is a real, and `gcn_coeff_nonneg`: it is non-negative — what lets it move across a neighbourhood sum.
-/
import Idealize.ShloMosaic.PureOps.Ideal
import Mathlib.Algebra.BigOperators.Fin
import Mathlib.Tactic.Linarith

noncomputable section

namespace ProofLib.RealOps

open Idealize.ShloMosaic

variable {ι : Type*}

/-- The inclusion of the reals in the extended reals commutes with finite sums. -/
theorem coe_sum (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- The reciprocal square root of a positive real is the real `(√r)⁻¹`. -/
theorem rsqrt_coe_of_pos {r : ℝ} (hr : 0 < r) : Ideal.rsqrt (r : EReal) = (((Real.sqrt r)⁻¹ : ℝ) : EReal) := by
  rw [Ideal.rsqrt_coe, if_neg (not_lt.mpr hr.le), if_neg hr.ne']

/-- That real is positive. -/
theorem inv_sqrt_pos {r : ℝ} (hr : 0 < r) : 0 < (Real.sqrt r)⁻¹ := inv_pos.mpr (Real.sqrt_pos.mpr hr)

/-- The reciprocal square root of `v + ε`, `v ≥ 0` and `ε > 0` reals: a variance plus its epsilon. -/
theorem rsqrt_add_eps {v eps : ℝ} (hv : 0 ≤ v) (he : 0 < eps) :
    Ideal.rsqrt ((v : EReal) + (eps : EReal)) = (((Real.sqrt (v + eps))⁻¹ : ℝ) : EReal) := by
  rw [← EReal.coe_add, rsqrt_coe_of_pos (add_pos_of_nonneg_of_pos hv he)]

/-- The maximum of two reals, in the extended reals, is their real maximum. -/
theorem coe_max (x y : ℝ) : ((max x y : ℝ) : EReal) = max (x : EReal) (y : EReal) :=
  EReal.coe_strictMono.monotone.map_max

/-- The inner product of two real rows is the real inner product. -/
theorem dot_coe (s : Finset ι) (a b : ι → ℝ) :
    ∑ k ∈ s, (a k : EReal) * (b k : EReal) = ((∑ k ∈ s, a k * b k : ℝ) : EReal) := by
  rw [coe_sum]; exact Finset.sum_congr rfl fun k _ => (EReal.coe_mul _ _).symm

/-- A sum of ones over a finite set is the number of its elements. -/
theorem sum_ones (s : Finset ι) : ∑ _i ∈ s, (1 : EReal) = ((s.card : ℝ) : EReal) := by
  have h1 : ∑ _i ∈ s, (1 : EReal) = ∑ _i ∈ s, ((1 : ℝ) : EReal) := by simp
  rw [h1, ← coe_sum]; simp

/-- The comparison `x > y` is the flag 1 exactly when `y < x`. -/
theorem cmp_ogt_eq_one_iff (x y : EReal) : Ideal.cmp .ogt x y = 1#1 ↔ y < x := by
  unfold Ideal.cmp
  by_cases h : y < x <;> simp [h]

/-- The symmetric-normalisation coefficient of a real degree `d`: `(√(max d 1))⁻¹` where `d > 0`, else `0`. -/
def gcnCoeff (d : ℝ) : ℝ := if 0 < d then (Real.sqrt (max d 1))⁻¹ else 0

/-- `where(d > 0, rsqrt(max(d, 1)), 0)` at a real `d` is the real `gcnCoeff d`. -/
theorem gcn_coeff_coe (d : ℝ) :
    Scalar.select (Ideal.cmp .ogt (d : EReal) 0) (Ideal.rsqrt (max (d : EReal) 1)) (0 : EReal) = ((gcnCoeff d : ℝ) : EReal) := by
  have h1 : (1 : EReal) = ((1 : ℝ) : EReal) := EReal.coe_one.symm
  have hpos : (0 : ℝ) < max d 1 := lt_of_lt_of_le one_pos (le_max_right d 1)
  unfold Scalar.select gcnCoeff
  by_cases hd : 0 < d
  · have hc : Ideal.cmp .ogt (d : EReal) 0 = (1 : BitVec 1) := (cmp_ogt_eq_one_iff _ _).mpr (by exact_mod_cast hd)
    rw [if_pos hc, if_pos hd, h1, ← coe_max, rsqrt_coe_of_pos hpos]
  · have hc : ¬ Ideal.cmp .ogt (d : EReal) 0 = (1 : BitVec 1) := fun e => hd (by exact_mod_cast (cmp_ogt_eq_one_iff _ _).mp e)
    rw [if_neg hc, if_neg hd, EReal.coe_zero]

/-- The coefficient is non-negative. -/
theorem gcn_coeff_nonneg (d : ℝ) : 0 ≤ gcnCoeff d := by
  unfold gcnCoeff
  split
  · exact inv_nonneg.mpr (Real.sqrt_nonneg _)
  · exact le_rfl

end ProofLib.RealOps

end
-- ==== Proof.NormLaw.lean ====
/-
  On real entries the two spellings of the row network are one function.

  The spellings differ in the normalisation of a row `u` of `N` reals, with `n` the real the length word denotes
  (`n = N`), `m = (∑ u) / n` the mean and `ε > 0` the real the ε word denotes:
  * from the moments the variance is `(∑ u²) / n − m²`, and the centred entry is multiplied by the reciprocal square
    root of (variance + ε);
  * from the centred entries the variance is `(∑ (u − m)²) / n`, the sums started from the zero word, and the centred
    entry is divided by the square root of (variance + ε).
  Over ℝ the two variances agree (`var_identity`: expand the square, and `∑ 1 = n`), the common value is a sum of
  squares over `n > 0`, so variance + ε is positive, and there dividing by `√x` is multiplying by `(√x)⁻¹`. Every
  step is first carried from the extended reals to ℝ: sums, products and differences of reals are reals, a division by
  a nonzero real is a product with its inverse, and the (reciprocal) square root of a positive real is a real.

  The reals are preserved through a layer (an inner product plus a bias, a choice between `z` and `a · z`, the
  normalisation), so the second layer's input is again a real row and the law applies to it.
-/
import proofs.«140718_j55018531062716_2_alg».proof.Proof.RowNet
import proofs.«140718_j55018531062716_2_alg».proof.Proof.LibRealOps
import Idealize.ShloMosaic.PureOps.Ideal.Laws
import Mathlib.Tactic.FieldSimp
import Mathlib.Tactic.Ring

noncomputable section

open scoped BigOperators

namespace Cert.NormLaw

open Idealize.ShloMosaic Cert.RowNet ProofLib.RealOps

/-! ## The constants -/

/-- The word `0x43430000` denotes the real `195`. -/
theorem ofBits_195 : Ideal.ofBits .f32 0x43430000#32 = ((195 : ℝ) : EReal) := by
  simp [Ideal.ofBits, Ideal.ieee, -EReal.coe_mul]; norm_num

/-- The word `0x429C0000` denotes the real `78`. -/
theorem ofBits_78 : Ideal.ofBits .f32 0x429C0000#32 = ((78 : ℝ) : EReal) := by
  simp [Ideal.ofBits, Ideal.ieee, -EReal.coe_mul]; norm_num

/-- The ε word `0x3727C5AC` denotes the real `10995116 · 2⁻⁴⁰`. -/
theorem ofBits_eps_val : Ideal.ofBits .f32 0x3727C5AC#32 = ((10995116 * (2 : ℝ) ^ (-40 : ℤ) : ℝ) : EReal) := by
  simp [Ideal.ofBits, Ideal.ieee, -EReal.coe_mul]

/-- The ε word denotes a positive real. -/
theorem ofBits_eps : ∃ e : ℝ, 0 < e ∧ Ideal.ofBits .f32 0x3727C5AC#32 = (e : EReal) :=
  ⟨_, by positivity, ofBits_eps_val⟩

/-! ## The variance, over ℝ -/

/-- The mean, the mean square and the centred variance of a real row, `n` the real its length word denotes. -/
def meanR {N : ℕ} (n : ℝ) (u : Fin N → ℝ) : ℝ := (∑ j, u j) * (1 / n)
def msqR {N : ℕ} (n : ℝ) (u : Fin N → ℝ) : ℝ := (∑ j, u j * u j) * (1 / n)
def varR {N : ℕ} (n : ℝ) (u : Fin N → ℝ) : ℝ := (∑ j, (u j - meanR n u) * (u j - meanR n u)) * (1 / n)

/-- `E u² − m² = E (u − m)²` where `m = E u` and `n` is the number of entries. -/
theorem var_identity {N : ℕ} (u : Fin N → ℝ) (n : ℝ) (hn : n ≠ 0) (hcard : n = (N : ℝ)) :
    msqR n u - meanR n u * meanR n u = varR n u := by
  have h1 : ∀ m : ℝ, ∑ j, (u j - m) * (u j - m) = (∑ j, u j * u j) - 2 * m * (∑ j, u j) + N * (m * m) := by
    intro m
    have : ∀ j, (u j - m) * (u j - m) = u j * u j - 2 * m * u j + m * m := fun j => by ring
    simp only [this]
    rw [Finset.sum_add_distrib, Finset.sum_sub_distrib, ← Finset.mul_sum, Finset.sum_const, Finset.card_univ,
      Fintype.card_fin, nsmul_eq_mul]
  unfold varR msqR
  rw [h1, ← hcard]
  unfold meanR
  field_simp
  ring

/-- The centred variance is a sum of squares over a positive number. -/
theorem varR_nonneg {N : ℕ} (u : Fin N → ℝ) (n : ℝ) (hn : 0 < n) : 0 ≤ varR n u :=
  mul_nonneg (Finset.sum_nonneg fun j _ => mul_self_nonneg _) (one_div_pos.mpr hn).le

/-- The square root of a non-negative real is the real square root. -/
theorem sqrt_coe_of_nonneg {r : ℝ} (hr : 0 ≤ r) : Ideal.sqrt (r : EReal) = ((Real.sqrt r : ℝ) : EReal) := by
  rw [Ideal.sqrt_coe, if_neg (not_lt.mpr hr)]

/-! ## The row quantities of a real row are these reals -/

section Row

variable {N : ℕ} (nW : BitVec 32) (n : ℝ) (hn : 0 < n) (hN : Ideal.ofBits .f32 nW = (n : EReal))
include hn hN

theorem meanM_coe (u : Fin N → ℝ) : meanM nW (fun j => (u j : EReal)) = (meanR n u : EReal) := by
  unfold meanM meanR
  rw [hN, Ideal.div_coe hn.ne', ← coe_sum, ← EReal.coe_mul]

theorem meanC_coe (u : Fin N → ℝ) : meanC nW (fun j => (u j : EReal)) = (meanR n u : EReal) := by
  unfold meanC meanR zeroW
  rw [Ideal.ofBits_zero_f32, zero_add, hN, Ideal.div_coe hn.ne', ← coe_sum, ← EReal.coe_mul]

theorem msqM_coe (u : Fin N → ℝ) : msqM nW (fun j => (u j : EReal)) = (msqR n u : EReal) := by
  unfold msqM msqR
  rw [hN, Ideal.div_coe hn.ne', dot_coe, ← EReal.coe_mul]

theorem varC_coe (u : Fin N → ℝ) : varC nW (fun j => (u j : EReal)) = (varR n u : EReal) := by
  unfold varC zeroW
  rw [meanC_coe nW n hn hN u, Ideal.ofBits_zero_f32, zero_add, hN, Ideal.div_coe hn.ne']
  simp only [← EReal.coe_sub]
  rw [dot_coe, ← EReal.coe_mul]
  rfl

variable (hcard : n = (N : ℝ)) (e : ℝ) (he : 0 < e) (hE : Ideal.ofBits .f32 0x3727C5AC#32 = (e : EReal))
include hcard he hE

theorem invM_coe (u : Fin N → ℝ) :
    invM nW (fun j => (u j : EReal)) = (((Real.sqrt (varR n u + e))⁻¹ : ℝ) : EReal) := by
  unfold invM epsW
  rw [msqM_coe nW n hn hN, meanM_coe nW n hn hN, hE, ← EReal.coe_mul, ← EReal.coe_sub,
    var_identity u n hn.ne' hcard, rsqrt_add_eps (varR_nonneg u n hn) he]

/-- The centred entry times the reciprocal root is the centred entry over the root. -/
theorem scaled_eq (u : Fin N → ℝ) (j : Fin N) :
    ((u j : EReal) - meanM nW (fun j => (u j : EReal))) * invM nW (fun j => (u j : EReal))
      = Ideal.div ((u j : EReal) - meanC nW (fun j => (u j : EReal)))
          (Ideal.sqrt (varC nW (fun j => (u j : EReal)) + epsW)) := by
  have hpos : 0 < varR n u + e := add_pos_of_nonneg_of_pos (varR_nonneg u n hn) he
  rw [meanM_coe nW n hn hN, invM_coe nW n hn hN hcard e he hE, meanC_coe nW n hn hN, varC_coe nW n hn hN]
  unfold epsW
  rw [hE, ← EReal.coe_add, sqrt_coe_of_nonneg hpos.le, Ideal.div_coe (Real.sqrt_pos.mpr hpos).ne', one_div]

/-- The two normalisations of a real row agree (whatever `α`, `β` are). -/
theorem norm_eq (α β : Fin N → EReal) (u : Fin N → ℝ) :
    normMoments nW α β (fun j => (u j : EReal)) = normCentred nW α β (fun j => (u j : EReal)) := by
  funext j
  show ((u j : EReal) - meanM nW (fun j => (u j : EReal))) * invM nW (fun j => (u j : EReal)) * α j + β j
    = Ideal.div ((u j : EReal) - meanC nW (fun j => (u j : EReal)))
        (Ideal.sqrt (varC nW (fun j => (u j : EReal)) + epsW)) * α j + β j
  rw [scaled_eq nW n hn hN hcard e he hE u j]

/-- The normalisation of a real row with real `α`, `β` is a real row. -/
theorem normMoments_real (α β u : Fin N → ℝ) (j : Fin N) :
    ∃ r : ℝ, normMoments nW (fun j => (α j : EReal)) (fun j => (β j : EReal)) (fun j => (u j : EReal)) j = (r : EReal) := by
  refine ⟨(u j - meanR n u) * (Real.sqrt (varR n u + e))⁻¹ * α j + β j, ?_⟩
  show ((u j : EReal) - meanM nW (fun j => (u j : EReal))) * invM nW (fun j => (u j : EReal)) * (α j : EReal) + (β j : EReal) = _
  rw [meanM_coe nW n hn hN, invM_coe nW n hn hN hcard e he hE, ← EReal.coe_sub, ← EReal.coe_mul, ← EReal.coe_mul,
    ← EReal.coe_add]

end Row

/-! ## The reals through a layer -/

/-- The dense layer of real data is the real inner product plus the bias. -/
theorem affine_coe {K N : ℕ} (W : Fin N → Fin K → ℝ) (b : Fin N → ℝ) (v : Fin K → ℝ) (j : Fin N) :
    affine (fun n k => (W n k : EReal)) (fun n => (b n : EReal)) (fun k => (v k : EReal)) j
      = (((∑ k, v k * W j k) + b j : ℝ) : EReal) := by
  unfold affine
  rw [dot_coe, ← EReal.coe_add]

/-- The leaky rectifier of reals is a real: it is `z` or `a · z`. -/
theorem leaky_real (a z : ℝ) : ∃ r : ℝ, leaky (a : EReal) (z : EReal) = (r : EReal) := by
  unfold leaky Scalar.select
  split
  · exact ⟨z, rfl⟩
  · exact ⟨a * z, (EReal.coe_mul a z).symm⟩

/-- The row a layer normalises, of real data, is a real row. -/
theorem pre_real {K N : ℕ} (W : Fin N → Fin K → ℝ) (b : Fin N → ℝ) (a : ℝ) (v : Fin K → ℝ) :
    ∃ u : Fin N → ℝ, (fun j => leaky (a : EReal)
        (affine (fun n k => (W n k : EReal)) (fun n => (b n : EReal)) (fun k => (v k : EReal)) j))
      = fun j => (u j : EReal) := by
  have h : ∀ j, ∃ r : ℝ, leaky (a : EReal)
      (affine (fun n k => (W n k : EReal)) (fun n => (b n : EReal)) (fun k => (v k : EReal)) j) = (r : EReal) := by
    intro j
    rw [affine_coe]
    exact leaky_real _ _
  choose u hu using h
  exact ⟨u, funext hu⟩

section Layer

variable {K N : ℕ} (nW : BitVec 32) (n : ℝ) (hn : 0 < n) (hN : Ideal.ofBits .f32 nW = (n : EReal))
  (hcard : n = (N : ℝ)) (e : ℝ) (he : 0 < e) (hE : Ideal.ofBits .f32 0x3727C5AC#32 = (e : EReal))
include hn hN hcard he hE

/-- One layer of real weights, bias, slope and input agrees in the two spellings. -/
theorem layer_eq (W : Fin N → Fin K → ℝ) (b : Fin N → ℝ) (a : ℝ) (α β : Fin N → EReal) (v : Fin K → ℝ) :
    layerMoments nW (fun n k => (W n k : EReal)) (fun n => (b n : EReal)) (a : EReal) α β (fun k => (v k : EReal))
      = layerCentred nW (fun n k => (W n k : EReal)) (fun n => (b n : EReal)) (a : EReal) α β
          (fun k => (v k : EReal)) := by
  obtain ⟨u, hu⟩ := pre_real W b a v
  unfold layerMoments layerCentred
  rw [hu]
  exact norm_eq nW n hn hN hcard e he hE α β u

/-- One layer of real data gives a real row. -/
theorem layer_real (W : Fin N → Fin K → ℝ) (b : Fin N → ℝ) (a : ℝ) (α β : Fin N → ℝ) (v : Fin K → ℝ) :
    ∃ y : Fin N → ℝ, layerMoments nW (fun n k => (W n k : EReal)) (fun n => (b n : EReal)) (a : EReal)
        (fun n => (α n : EReal)) (fun n => (β n : EReal)) (fun k => (v k : EReal)) = fun j => (y j : EReal) := by
  obtain ⟨u, hu⟩ := pre_real W b a v
  unfold layerMoments
  rw [hu]
  choose y hy using normMoments_real nW n hn hN hcard e he hE α β u
  exact ⟨y, funext hy⟩

end Layer

/-! ## The network -/

/-- On real entries the moments spelling and the centred spelling of the network are one function. -/
theorem net_eq (W1 : Fin 195 → Fin 78 → EReal) (b1 : Fin 195 → EReal) (a1 : EReal) (α1 β1 : Fin 195 → EReal)
    (W2 : Fin 78 → Fin 195 → EReal) (b2 : Fin 78 → EReal) (a2 : EReal) (α2 β2 : Fin 78 → EReal) (v : Fin 78 → EReal)
    (hW1 : ∀ n k, ∃ r : ℝ, W1 n k = (r : EReal)) (hb1 : ∀ n, ∃ r : ℝ, b1 n = (r : EReal))
    (ha1 : ∃ r : ℝ, a1 = (r : EReal)) (hα1 : ∀ n, ∃ r : ℝ, α1 n = (r : EReal))
    (hβ1 : ∀ n, ∃ r : ℝ, β1 n = (r : EReal)) (hW2 : ∀ n k, ∃ r : ℝ, W2 n k = (r : EReal))
    (hb2 : ∀ n, ∃ r : ℝ, b2 n = (r : EReal)) (ha2 : ∃ r : ℝ, a2 = (r : EReal))
    (hα2 : ∀ n, ∃ r : ℝ, α2 n = (r : EReal)) (hβ2 : ∀ n, ∃ r : ℝ, β2 n = (r : EReal))
    (hv : ∀ k, ∃ r : ℝ, v k = (r : EReal)) :
    netMoments W1 b1 a1 α1 β1 W2 b2 a2 α2 β2 v = netCentred W1 b1 a1 α1 β1 W2 b2 a2 α2 β2 v := by
  choose w1 hw1 using hW1
  choose c1 hc1 using hb1
  obtain ⟨s1, rfl⟩ := ha1
  choose p1 hp1 using hα1
  choose q1 hq1 using hβ1
  choose w2 hw2 using hW2
  choose c2 hc2 using hb2
  obtain ⟨s2, rfl⟩ := ha2
  choose x hx using hv
  obtain rfl : W1 = fun n k => (w1 n k : EReal) := funext fun n => funext fun k => hw1 n k
  obtain rfl : b1 = fun n => (c1 n : EReal) := funext hc1
  obtain rfl : α1 = fun n => (p1 n : EReal) := funext hp1
  obtain rfl : β1 = fun n => (q1 n : EReal) := funext hq1
  obtain rfl : W2 = fun n k => (w2 n k : EReal) := funext fun n => funext fun k => hw2 n k
  obtain rfl : b2 = fun n => (c2 n : EReal) := funext hc2
  obtain rfl : v = fun k => (x k : EReal) := funext hx
  obtain ⟨e, he, hE⟩ := ofBits_eps
  have h195 : (195 : ℝ) = ((195 : ℕ) : ℝ) := by norm_num
  have h78 : (78 : ℝ) = ((78 : ℕ) : ℝ) := by norm_num
  obtain ⟨y, hy⟩ := layer_real 0x43430000#32 195 (by norm_num) ofBits_195 h195 e he hE w1 c1 s1 p1 q1 x
  unfold netMoments netCentred
  rw [← layer_eq 0x43430000#32 195 (by norm_num) ofBits_195 h195 e he hE w1 c1 s1 _ _ x, hy,
    ← layer_eq 0x429C0000#32 78 (by norm_num) ofBits_78 h78 e he hE w2 c2 s2 α2 β2 y]

/-! ## The whole arrays -/

/-- A token's row of two real arrays is a real row: each entry is an entry of one of them. -/
theorem tokenRow_real (X Y : SX.Idx → EReal) (hX : ∀ i, ∃ r : ℝ, X i = (r : EReal))
    (hY : ∀ i, ∃ r : ℝ, Y i = (r : EReal)) (b : Fin 256) (t : Fin 2048) (k : Fin 78) :
    ∃ r : ℝ, tokenRow X Y b t k = (r : EReal) := by
  unfold tokenRow joinRow
  split
  · exact hX _
  · exact hY _

/-- On real arrays the result arrays of the two spellings are equal. -/
theorem res_eq (half : Fin 39 → Fin 78) (X Y : SX.Idx → EReal) (W1 : SW1.Idx → EReal) (b1 : S195v.Idx → EReal)
    (W2 : SW2.Idx → EReal) (b2 : S78v.Idx → EReal) (a1 a2 : S1v.Idx → EReal) (α1 β1 : S195v.Idx → EReal)
    (α2 β2 : S78v.Idx → EReal)
    (hX : ∀ i, ∃ r : ℝ, X i = (r : EReal)) (hY : ∀ i, ∃ r : ℝ, Y i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (ha1 : ∀ i, ∃ r : ℝ, a1 i = (r : EReal)) (ha2 : ∀ i, ∃ r : ℝ, a2 i = (r : EReal))
    (hα1 : ∀ i, ∃ r : ℝ, α1 i = (r : EReal)) (hβ1 : ∀ i, ∃ r : ℝ, β1 i = (r : EReal))
    (hα2 : ∀ i, ∃ r : ℝ, α2 i = (r : EReal)) (hβ2 : ∀ i, ∃ r : ℝ, β2 i = (r : EReal)) :
    resMoments half X Y W1 b1 W2 b2 a1 a2 α1 β1 α2 β2 = resCentred half X Y W1 b1 W2 b2 a1 a2 α1 β1 α2 β2 := by
  funext i
  unfold resMoments resCentred
  exact congrFun (net_eq _ _ _ _ _ _ _ _ _ _ _ (fun _ _ => hW1 _) (fun _ => hb1 _) (ha1 _) (fun _ => hα1 _)
    (fun _ => hβ1 _) (fun _ _ => hW2 _) (fun _ => hb2 _) (ha2 _) (fun _ => hα2 _) (fun _ => hβ2 _)
    (tokenRow_real X Y hX hY _ _)) _

end Cert.NormLaw

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteArgs.lean ====
/-
  Every entry of the twelve argument arrays is a real.

  The precondition is a conjunction of twelve tests, one per array: every entry's absolute value is below the word of
  +∞, reduced by `and` over all axes, and the twelve flags are and-ed together from left to right. Read at the one
  index of the rank-0 result, the conjunction splits into its twelve flags, and each flag being 1 says every entry of
  its array is a real.
-/
import proofs.«140718_j55018531062716_2_alg».proof.Pre_finite_inputs
import proofs.«140718_j55018531062716_2_alg».proof.Proof.Gen.Pre_finite_inputs
import proofs.«140718_j55018531062716_2_alg».proof.Proof.LibFiniteEntry
import Idealize.ShloMosaic.Lib.ValueIdx

noncomputable section

namespace Cert.FiniteArgs

open Idealize.ShloMosaic Cert.Pre_finite_inputs

/-- The rank-0 shape has one index. -/
instance subsingleton_scalar_idx : Subsingleton S_.Idx := ⟨fun _ _ => funext fun d => d.elim0⟩

/-- A pointwise `and` of two flag arrays that is 1 at an index has both flags 1 there. -/
theorem andi_apply_eq_one {s : Shape} (x y : IVec s 1) (i : s.Idx) (h : andi x y i = 1#1) : x i = 1#1 ∧ y i = 1#1 :=
  (IntOp.andi_eq_one (c := x i) (d := y i)).1 h

/-- One test: all entries' absolute values below the broadcast +∞ word, true, says every entry is a real. -/
theorem test_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, (x i : EReal) = (r : EReal) :=
  ProofLib.Finite.all_real_of_all_abs_lt_inf x _ (fun _ => rfl) _ hr hu _ e

variable [Cert.Pre_finite_inputs.Facts]

/-- The precondition, true, says every entry of every argument array is a real. -/
theorem all_real (a0 a1 : FVec Ideal S256x2048x39 .f32) (a2 : FVec Ideal S195x78 .f32) (a3 : FVec Ideal S195 .f32)
    (a4 : FVec Ideal S78x195 .f32) (a5 : FVec Ideal S78 .f32) (a6 a7 : FVec Ideal S1 .f32)
    (a8 a9 : FVec Ideal S195 .f32) (a10 a11 : FVec Ideal S78 .f32)
    (h : Cert.Pre_finite_inputs.fn (F := Ideal) a0 a1 a2 a3 a4 a5 a6 a7 a8 a9 a10 a11 = fun _ => 1#1) :
    (∀ i, ∃ r : ℝ, (a0 i : EReal) = r) ∧ (∀ i, ∃ r : ℝ, (a1 i : EReal) = r) ∧ (∀ i, ∃ r : ℝ, (a2 i : EReal) = r)
      ∧ (∀ i, ∃ r : ℝ, (a3 i : EReal) = r) ∧ (∀ i, ∃ r : ℝ, (a4 i : EReal) = r) ∧ (∀ i, ∃ r : ℝ, (a5 i : EReal) = r)
      ∧ (∀ i, ∃ r : ℝ, (a6 i : EReal) = r) ∧ (∀ i, ∃ r : ℝ, (a7 i : EReal) = r) ∧ (∀ i, ∃ r : ℝ, (a8 i : EReal) = r)
      ∧ (∀ i, ∃ r : ℝ, (a9 i : EReal) = r) ∧ (∀ i, ∃ r : ℝ, (a10 i : EReal) = r)
      ∧ (∀ i, ∃ r : ℝ, (a11 i : EReal) = r) := by
  have h0 := congrFun h ValueIdx.ix0
  unfold fn fn_part1 fn_part2 fn_part3 at h0
  dsimp only at h0
  obtain ⟨h0, c11⟩ := andi_apply_eq_one _ _ _ h0
  obtain ⟨h0, c10⟩ := andi_apply_eq_one _ _ _ h0
  obtain ⟨h0, c9⟩ := andi_apply_eq_one _ _ _ h0
  obtain ⟨h0, c8⟩ := andi_apply_eq_one _ _ _ h0
  obtain ⟨h0, c7⟩ := andi_apply_eq_one _ _ _ h0
  obtain ⟨h0, c6⟩ := andi_apply_eq_one _ _ _ h0
  obtain ⟨h0, c5⟩ := andi_apply_eq_one _ _ _ h0
  obtain ⟨h0, c4⟩ := andi_apply_eq_one _ _ _ h0
  obtain ⟨h0, c3⟩ := andi_apply_eq_one _ _ _ h0
  obtain ⟨h0, c2⟩ := andi_apply_eq_one _ _ _ h0
  obtain ⟨c0, c1⟩ := andi_apply_eq_one _ _ _ h0
  exact ⟨test_real a0 _ _ _ c0, test_real a1 _ _ _ c1, test_real a2 _ _ _ c2, test_real a3 _ _ _ c3,
    test_real a4 _ _ _ c4, test_real a5 _ _ _ c5, test_real a6 _ _ _ c6, test_real a7 _ _ _ c7,
    test_real a8 _ _ _ c8, test_real a9 _ _ _ c9, test_real a10 _ _ _ c10, test_real a11 _ _ _ c11⟩

end Cert.FiniteArgs

end
-- ==== Proof.PreLaw.lean ====
/-
  Under the precondition the two spellings' result arrays are equal.

  The precondition says every entry of the twelve argument arrays is a real; on real arrays the moments spelling and
  the centred spelling of the row network give the same result arrays.
-/
import proofs.«140718_j55018531062716_2_alg».proof.Proof.NormLaw
import proofs.«140718_j55018531062716_2_alg».proof.Proof.FiniteArgs

noncomputable section

namespace Cert.PreLaw

open Idealize.ShloMosaic Cert.RowNet Cert.Pre_finite_inputs

variable [Cert.Pre_finite_inputs.Facts]

/-- The precondition, true of the twelve argument arrays, makes the result arrays of the two spellings equal. -/
theorem res_eq_of_pre (half : Fin 39 → Fin 78) (a0 a1 : FVec Ideal S256x2048x39 .f32) (a2 : FVec Ideal S195x78 .f32)
    (a3 : FVec Ideal S195 .f32) (a4 : FVec Ideal S78x195 .f32) (a5 : FVec Ideal S78 .f32)
    (a6 a7 : FVec Ideal S1 .f32) (a8 a9 : FVec Ideal S195 .f32) (a10 a11 : FVec Ideal S78 .f32)
    (h : Cert.Pre_finite_inputs.fn (F := Ideal) a0 a1 a2 a3 a4 a5 a6 a7 a8 a9 a10 a11 = fun _ => 1#1) :
    resMoments half a0 a1 a2 a3 a4 a5 a6 a7 a8 a9 a10 a11 = resCentred half a0 a1 a2 a3 a4 a5 a6 a7 a8 a9 a10 a11 := by
  obtain ⟨h0, h1, h2, h3, h4, h5, h6, h7, h8, h9, h10, h11⟩ :=
    Cert.FiniteArgs.all_real a0 a1 a2 a3 a4 a5 a6 a7 a8 a9 a10 a11 h
  exact Cert.NormLaw.res_eq half a0 a1 a2 a3 a4 a5 a6 a7 a8 a9 a10 a11 h0 h1 h2 h3 h4 h5 h6 h7 h8 h9 h10 h11

end Cert.PreLaw

end
-- ==== Proof.lean ====
/-
  The certificate: a kernel that pushes each token's 78 features (39 of each of two arrays) through two dense layers —
  each followed by a leaky rectifier and a normalisation of the row — and adds the features back, against a host
  reference that computes the same net over whole arrays.

  The frames of the two printed kernel programs are the generated ones; the reference's is its run with the results
  dropped. Nothing was rewritten when the kernel was idealized, so the preservation claim is trivial.

  The algebraic claim. At the ideal values a change of float format is the identity and a product into zero is the
  plain sum of products, so both programs compute, for every token `(b, t)` and column `q`, the net of RowNet.lean on
  the token's joined row: the kernel (KernelRow.lean, KernelArray.lean, KernelHost.lean, KernelResult.lean: 4096 rows
  per grid point, the parameter arrays loaded whole, the results written back by rows and re-read at rank three) in the
  spelling that takes each row's variance as the mean of squares minus the squared mean and multiplies by the
  reciprocal square root; the reference (RefRead.lean) in the spelling that takes the mean of the squared centred
  entries and divides by the square root. The precondition makes every input entry a real (FiniteArgs.lean), and on
  real entries the two spellings agree (NormLaw.lean, PreLaw.lean): the variance is then a non-negative real, the
  variance plus the positive ε is positive, and multiplying by `(√v)⁻¹` is dividing by `√v`.
-/
import proofs.«140718_j55018531062716_2_alg».proof.Defs
import proofs.«140718_j55018531062716_2_alg».proof.Proof.Gen.Kernel
import proofs.«140718_j55018531062716_2_alg».proof.Proof.Gen.Kernel.Frame
import proofs.«140718_j55018531062716_2_alg».proof.Proof.Gen.KernelIdeal
import proofs.«140718_j55018531062716_2_alg».proof.Proof.Gen.KernelIdeal.Frame
import proofs.«140718_j55018531062716_2_alg».proof.Proof.Gen.ReferenceIdeal
import proofs.«140718_j55018531062716_2_alg».proof.Proof.Gen.Pre_finite_inputs
import proofs.«140718_j55018531062716_2_alg».proof.Proof.RefRunPatched
import proofs.«140718_j55018531062716_2_alg».proof.Proof.RefReadPatched
import proofs.«140718_j55018531062716_2_alg».proof.Proof.RefRead
import proofs.«140718_j55018531062716_2_alg».proof.Proof.KernelResult
import proofs.«140718_j55018531062716_2_alg».proof.Proof.PreLaw
import Idealize.ShloMosaic.Adequacy
import Idealize.ShloMosaic.Init

noncomputable section

namespace Cert.Proof

open Idealize.ShloMosaic Idealize.ShloMosaic.TcCoe Idealize.SL.Sem Cert.RowNet

theorem frame_kernel : Cert.frame_Kernel := fun m ρ _ => Cert.Kernel.Gen.frame m ρ
theorem frame_kernelIdeal : Cert.frame_KernelIdeal := fun m ρ _ => Cert.KernelIdeal.Gen.frame m ρ

/-- The reference's frame: its run, the two results dropped. -/
theorem frame_reference : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both runs end with the net's result arrays of the kernel's arguments: the kernel in the moments spelling, the
    reference — from agreeing arguments — in the centred spelling, which the precondition makes the same function. -/
theorem algebraic : Cert.algebraic_KernelIdeal_ReferenceIdeal := by
  intro m ρ m' ρ' hpre hagree
  refine ⟨_, _, Cert.KernelResult.kernel_run m ρ, ?_⟩
  refine (θ_run Cert.ReferenceIdeal.defs _ _).mono (fun _ h c => ?_) (Cert.ReferenceIdeal.ValueP.run (F := Ideal) m' ρ')
  obtain ⟨e0, e1, e2, e3, e4, e5, e6, e7, e8, e9, e10, e11⟩ := hagree c
  refine ⟨(h c).1.trans ?_, (h c).2.1.trans ?_, (h c).2.2⟩
  · rw [Cert.ReferenceIdeal.ReadP.val_main_v70_eq, Cert.RefRead.ref_first, e0, e1, e2, e3, e4, e5, e6, e7, e8, e9, e10, e11]
    exact (Cert.PreLaw.res_eq_of_pre colX _ _ _ _ _ _ _ _ _ _ _ _ (hpre c)).symm
  · rw [Cert.ReferenceIdeal.ReadP.val_main_v71_eq, Cert.RefRead.ref_second, e0, e1, e2, e3, e4, e5, e6, e7, e8, e9, e10, e11]
    exact (Cert.PreLaw.res_eq_of_pre colY _ _ _ _ _ _ _ _ _ _ _ _ (hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
